-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S128x96 : Shape := ⟨2, ![128, 96]⟩
abbrev S128 : Shape := ⟨1, ![128]⟩
abbrev S128x128 : Shape := ⟨2, ![128, 128]⟩
abbrev S64x192 : Shape := ⟨2, ![64, 192]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x96 : S_.BroadcastsInDim S128x96 (![] : Fin 0 → Fin S128x96.rank)
  reducesTo_S128x96_S_d0_1 : S128x96.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x192 : S_.BroadcastsInDim S64x192 (![] : Fin 0 → Fin S64x192.rank)
  reducesTo_S64x192_S_d0_1 : S64x192.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg28 : FVec F S1 .f32) (main_v118 : IVec S_ 1) (main_v119 : FVec F S1x64 .f32) : IVec S_ 1 :=
  let main_cst_46 : FVec F S_ .f32 := constant S_ .f32 0x7F800000#32
  let main_v120 : FVec F S1x64 .f32 := broadcastInDim S1x64 ![] bcast_S_S1x64 main_cst_46
  let main_v121 : IVec S1x64 1 := cmpf .olt main_v119 main_v120
  let main_c_47 : IVec S_ 1 := constantI S_ 1 1#1
  let main_v122 : IVec S_ 1 := (fun x v => Host.reduce IntOp.andi x v reducesTo_S1x64_S_d0_1 h_S_) main_v121 main_c_47
  let main_v123 : IVec S_ 1 := andi main_v118 main_v122
  let main_v124 : FVec F S1 .f32 := Host.absf main_arg28
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  main_v128

def fn_part6 {F : FTy → Type} [FloatOps F] (main_arg24 : FVec F S128 .f32) (main_arg25 : FVec F S64x192 .f32) (main_arg26 : FVec F S64 .f32) (main_arg27 : FVec F S1x64 .f32) (main_arg28 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg24
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S64x192 .f32 := Host.absf main_arg25
  let main_cst_42 : FVec F S_ .f32 := constant S_ .f32 0x7F800000#32
  let main_v110 : FVec F S64x192 .f32 := broadcastInDim S64x192 ![] bcast_S_S64x192 main_cst_42
  let main_v111 : IVec S64x192 1 := cmpf .olt main_v109 main_v110
  let main_c_43 : IVec S_ 1 := constantI S_ 1 1#1
  let main_v112 : IVec S_ 1 := (fun x v => Host.reduce IntOp.andi x v reducesTo_S64x192_S_d0_1 h_S_) main_v111 main_c_43
  let main_v113 : IVec S_ 1 := andi main_v108 main_v112
  let main_v114 : FVec F S64 .f32 := Host.absf main_arg26
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S1x64 .f32 := Host.absf main_arg27
  fn_part7 (F := F) main_arg28 main_v118 main_v119

def fn_part5 {F : FTy → Type} [FloatOps F] (main_arg21 : FVec F S128 .f32) (main_arg22 : FVec F S128 .f32) (main_arg23 : FVec F S128 .f32) (main_arg24 : FVec F S128 .f32) (main_arg25 : FVec F S64x192 .f32) (main_arg26 : FVec F S64 .f32) (main_arg27 : FVec F S1x64 .f32) (main_arg28 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg22
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg23
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg24 main_arg25 main_arg26 main_arg27 main_arg28 main_v98 main_v101 main_c_39

def fn_part4 {F : FTy → Type} [FloatOps F] (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S64x192 .f32) (main_arg26 : FVec F S64 .f32) (main_arg27 : FVec F S1x64 .f32) (main_arg28 : FVec F S1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg20
  let main_cst_32 : FVec F S_ .f32 := constant S_ .f32 0x7F800000#32
  fn_part5 (F := F) main_arg21 main_arg22 main_arg23 main_arg24 main_arg25 main_arg26 main_arg27 main_arg28 main_v83 main_v84 main_cst_32

def fn_part3 {F : FTy → Type} [FloatOps F] (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S64x192 .f32) (main_arg26 : FVec F S64 .f32) (main_arg27 : FVec F S1x64 .f32) (main_arg28 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_arg19 main_arg20 main_arg21 main_arg22 main_arg23 main_arg24 main_arg25 main_arg26 main_arg27 main_arg28 main_v63 main_v67

def fn_part2 {F : FTy → Type} [FloatOps F] (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S64x192 .f32) (main_arg26 : FVec F S64 .f32) (main_arg27 : FVec F S1x64 .f32) (main_arg28 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg7 : FVec F S128 .f32) (main_arg8 : FVec F S128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S64x192 .f32) (main_arg26 : FVec F S64 .f32) (main_arg27 : FVec F S1x64 .f32) (main_arg28 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S50000x64 .f32) (main_arg1 : IVec S2x800000 32) (main_arg2 : IVec S2x800000 32) (main_arg3 : IVec S2x800000 32) (main_arg4 : FVec F S800000x32 .f32) (main_arg5 : FVec F S128x96 .f32) (main_arg6 : FVec F S128 .f32) (main_arg7 : FVec F S128 .f32) (main_arg8 : FVec F S128 .f32) (main_arg9 : FVec F S128 .f32) (main_arg10 : FVec F S128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128 .f32) (main_arg25 : FVec F S64x192 .f32) (main_arg26 : FVec F S64 .f32) (main_arg27 : FVec F S1x64 .f32) (main_arg28 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg4
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x96 .f32 := Host.absf main_arg5
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S128x96 : Shape := ⟨2, ![128, 96]⟩
abbrev S128 : Shape := ⟨1, ![128]⟩
abbrev S128x128 : Shape := ⟨2, ![128, 128]⟩
abbrev S64x192 : Shape := ⟨2, ![64, 192]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S96x128 : Shape := ⟨2, ![96, 128]⟩
abbrev S1x128 : Shape := ⟨2, ![1, 128]⟩
abbrev S800000x128 : Shape := ⟨2, ![800000, 128]⟩
abbrev S8000x96 : Shape := ⟨2, ![8000, 96]⟩
abbrev S8000x128 : Shape := ⟨2, ![8000, 128]⟩
abbrev S50000x128 : Shape := ⟨2, ![50000, 128]⟩
abbrev S50000x1 : Shape := ⟨2, ![50000, 1]⟩
abbrev S5000x128 : Shape := ⟨2, ![5000, 128]⟩
abbrev S50000x256 : Shape := ⟨2, ![50000, 256]⟩
abbrev S128x256 : Shape := ⟨2, ![128, 256]⟩
abbrev S256x128 : Shape := ⟨2, ![256, 128]⟩
abbrev S5000x256 : Shape := ⟨2, ![5000, 256]⟩
abbrev S50000x192 : Shape := ⟨2, ![50000, 192]⟩
abbrev S192x64 : Shape := ⟨2, ![192, 64]⟩
abbrev S64x1 : Shape := ⟨2, ![64, 1]⟩
abbrev S1x1 : Shape := ⟨2, ![1, 1]⟩
abbrev S5000x192 : Shape := ⟨2, ![5000, 192]⟩
abbrev S5000x1 : Shape := ⟨2, ![5000, 1]⟩
abbrev S5000x64 : Shape := ⟨2, ![5000, 64]⟩
abbrev S50000 : Shape := ⟨1, ![50000]⟩

abbrev nBuf : Space → Nat
  | .hbm => 147
  | .vmem => 42
  | .smem => 0
  | _ => 0

abbrev hbmTy0_0 (i : Nat) : BufTy := match i % 128 with
  | 0 => ⟨S50000x64, .f32⟩
  | 1 => ⟨S2x800000, .i32⟩
  | 2 => ⟨S2x800000, .i32⟩
  | 3 => ⟨S2x800000, .i32⟩
  | 4 => ⟨S800000x32, .f32⟩
  | 5 => ⟨S128x96, .f32⟩
  | 6 => ⟨S128, .f32⟩
  | 7 => ⟨S128, .f32⟩
  | 8 => ⟨S128, .f32⟩
  | 9 => ⟨S128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S64x192, .f32⟩
  | 26 => ⟨S64, .f32⟩
  | 27 => ⟨S1x64, .f32⟩
  | 28 => ⟨S1, .f32⟩
  | 29 => ⟨S1x800000, .i32⟩
  | 30 => ⟨S800000, .i32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S800000x96, .f32⟩
  | 41 => ⟨S96x128, .f32⟩
  | 42 => ⟨S1x128, .f32⟩
  | 43 => ⟨S800000x128, .f32⟩
  | 44 => ⟨S1x800000, .i32⟩
  | 45 => ⟨S800000, .i32⟩
  | 46 => ⟨S_, .f32⟩
  | 47 => ⟨S50000x128, .f32⟩
  | 48 => ⟨S800000x1, .i32⟩
  | 49 => ⟨S50000x128, .f32⟩
  | 50 => ⟨S_, .f32⟩
  | 51 => ⟨S800000x1, .f32⟩
  | 52 => ⟨S_, .f32⟩
  | 53 => ⟨S50000x1, .f32⟩
  | 54 => ⟨S800000x1, .i32⟩
  | 55 => ⟨S50000x1, .f32⟩
  | 56 => ⟨S_, .f32⟩
  | 57 => ⟨S50000x1, .f32⟩
  | 58 => ⟨S50000x1, .f32⟩
  | 59 => ⟨S50000x128, .f32⟩
  | 60 => ⟨S50000x128, .f32⟩
  | 61 => ⟨S1x128, .f32⟩
  | 62 => ⟨S1x128, .f32⟩
  | 63 => ⟨S1x128, .f32⟩
  | 64 => ⟨S1x128, .f32⟩
  | 65 => ⟨S50000x128, .f32⟩
  | 66 => ⟨S1x800000, .i32⟩
  | 67 => ⟨S800000, .i32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S1x800000, .i32⟩
  | 78 => ⟨S800000, .i32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S800000x1, .f32⟩
  | 85 => ⟨S_, .f32⟩
  | 86 => ⟨S50000x1, .f32⟩
  | 87 => ⟨S800000x1, .i32⟩
  | 88 => ⟨S50000x1, .f32⟩
  | 89 => ⟨S_, .f32⟩
  | 90 => ⟨S50000x1, .f32⟩
  | 91 => ⟨S50000x1, .f32⟩
  | 92 => ⟨S50000x128, .f32⟩
  | 93 => ⟨S50000x128, .f32⟩
  | 94 => ⟨S50000x256, .f32⟩
  | 95 => ⟨S128x256, .f32⟩
  | 96 => ⟨S256x128, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S50000x128, .f32⟩
  | 103 => ⟨S1x800000, .i32⟩
  | 104 => ⟨S800000, .i32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S1x800000, .i32⟩
  | 115 => ⟨S800000, .i32⟩
  | 116 => ⟨S_, .f32⟩
  | 117 => ⟨S50000x128, .f32⟩
  | 118 => ⟨S800000x1, .i32⟩
  | 119 => ⟨S50000x128, .f32⟩
  | 120 => ⟨S_, .f32⟩
  | 121 => ⟨S800000x1, .f32⟩
  | 122 => ⟨S_, .f32⟩
  | 123 => ⟨S50000x1, .f32⟩
  | 124 => ⟨S800000x1, .i32⟩
  | 125 => ⟨S50000x1, .f32⟩
  | 126 => ⟨S_, .f32⟩
  | 127 => ⟨S50000x1, .f32⟩
  | _ => ⟨S50000x64, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x256, .f32⟩
  | 4 => ⟨S128x256, .f32⟩
  | 5 => ⟨S256x128, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S50000x128, .f32⟩
  | 12 => ⟨S50000x192, .f32⟩
  | 13 => ⟨S192x64, .f32⟩
  | 14 => ⟨S64x1, .f32⟩
  | 15 => ⟨S1x64, .f32⟩
  | 16 => ⟨S1x1, .f32⟩
  | 17 => ⟨S50000x1, .f32⟩
  | 18 => ⟨S50000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S8000x96, .f32⟩
  | .local _ .vmem, ⟨1, _⟩ => ⟨S8000x96, .f32⟩
  | .local _ .vmem, ⟨2, _⟩ => ⟨S96x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x256, .f32⟩
  | .local _ .vmem, ⟨15, _⟩ => ⟨S5000x256, .f32⟩
  | .local _ .vmem, ⟨16, _⟩ => ⟨S256x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x256, .f32⟩
  | .local _ .vmem, ⟨25, _⟩ => ⟨S5000x256, .f32⟩
  | .local _ .vmem, ⟨26, _⟩ => ⟨S256x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x192, .f32⟩
  | .local _ .vmem, ⟨35, _⟩ => ⟨S5000x192, .f32⟩
  | .local _ .vmem, ⟨36, _⟩ => ⟨S192x64, .f32⟩
  | .local _ .vmem, ⟨37, _⟩ => ⟨S1x64, .f32⟩
  | .local _ .vmem, ⟨38, _⟩ => ⟨S64x1, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_c : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_1 : Ref sig .tc := ⟨.hbm, 50, rfl⟩
abbrev main_v18 : Ref sig .tc := ⟨.hbm, 51, rfl⟩
abbrev main_cst_2 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_3 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_4 : Ref sig .tc := ⟨.hbm, 68, rfl⟩
abbrev main_v33 : Ref sig .tc := ⟨.hbm, 69, rfl⟩
abbrev main_v34 : Ref sig .tc := ⟨.hbm, 70, rfl⟩
abbrev main_c_5 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_6 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_7 : Ref sig .tc := ⟨.hbm, 83, rfl⟩
abbrev main_v45 : Ref sig .tc := ⟨.hbm, 84, rfl⟩
abbrev main_cst_8 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_9 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_10 : Ref sig .tc := ⟨.hbm, 105, rfl⟩
abbrev main_v64 : Ref sig .tc := ⟨.hbm, 106, rfl⟩
abbrev main_v65 : Ref sig .tc := ⟨.hbm, 107, rfl⟩
abbrev main_c_11 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_12 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_13 : Ref sig .tc := ⟨.hbm, 120, rfl⟩
abbrev main_v76 : Ref sig .tc := ⟨.hbm, 121, rfl⟩
abbrev main_cst_14 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_15 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x192 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  transposes_S128x96_S96x128_1_0 : S128x96.Transposes [1, 0] S96x128
  shapeCasts_S128_S1x128 : S128.ShapeCasts S1x128
  inb_S8000x96_S8000x96_0_0 : ∀ a, (![0, 0] : Fin 2 → Nat) a + S8000x96.size a ≤ S8000x96.size a
  h_S8000x96 : 0 < S8000x96.numel
  shapeCasts_S8000x96_S8000x96 : S8000x96.ShapeCasts S8000x96
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  slices_S2x800000_S1x800000_1_0 : S2x800000.Slices ![1, 0] S1x800000
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  concatenates_S50000x128_S50000x128_S50000x256_d1 : Shape.Concatenates [S50000x128, S50000x128] S50000x256 1
  concatenates_S128x128_S128x128_S128x256_d1 : Shape.Concatenates [S128x128, S128x128] S128x256 1
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  concatenates_S50000x128_S50000x64_S50000x192_d1 : Shape.Concatenates [S50000x128, S50000x64] S50000x192 1
  transposes_S64x192_S192x64_1_0 : S64x192.Transposes [1, 0] S192x64
  transposes_S1x64_S64x1_1_0 : S1x64.Transposes [1, 0] S64x1
  shapeCasts_S64_S1x64 : S64.ShapeCasts S1x64
  shapeCasts_S1_S1x1 : S1.ShapeCasts S1x1
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  gather_S50000x64_S800000x1_S800000x64_1_0_n_n_0_1_164_wf : GatherDims.WF S50000x64 S800000x1 S800000x64 [1] [0] [] [0] [] 1 ![1, 64]
  dot_S8000x96_S96x128_S8000x128_1_0_0_1_n_n_wf : DotDims.WF S8000x96 S96x128 S8000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  dot_S5000x256_S256x128_S5000x128_1_0_0_1_n_n_wf : DotDims.WF S5000x256 S256x128 S5000x128 [1] [0] [0] [1] [] []
  dot_S5000x192_S192x64_S5000x64_1_0_0_1_n_n_wf : DotDims.WF S5000x192 S192x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x96.size a ≤ S800000x96.size a
  hwx0_0 : ∀ i : grid0.Coords, EltTy.bits .f32 = 32 ∨ (Rect.block (s := S800000x96) S8000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x128.size a ≤ S96x128.size a
  hwx0_1 : ∀ i : grid0.Coords, EltTy.bits .f32 = 32 ∨ (Rect.block (s := S96x128) S96x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S800000x128.size a
  hwx0_3 : ∀ i : grid0.Coords, EltTy.bits .f32 = 32 ∨ (Rect.block (s := S800000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x192.size a ≤ S50000x192.size a
  hwx4_0 : ∀ i : grid4.Coords, EltTy.bits .f32 = 32 ∨ (Rect.block (s := S50000x192) S5000x192.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x64.size a ≤ S192x64.size a
  hwx4_1 : ∀ i : grid4.Coords, EltTy.bits .f32 = 32 ∨ (Rect.block (s := S192x64) S192x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S50000x1.size a
  hwx4_5 : ∀ i : grid4.Coords, EltTy.bits .f32 = 32 ∨ (Rect.block (s := S50000x1) S5000x1.size (cc4_transform_5 i) (hinb4_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x96_S96x128_S8000x128_1_0_0_1_n_n : DotDims S8000x96 S96x128 S8000x128 where
  lhsContracting := [1]
  rhsContracting := [0]
  lhsNonContracting := [0]
  rhsNonContracting := [1]
  lhsBatch := []
  rhsBatch := []
  wf := dot_S8000x96_S96x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v9) S8000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S96x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v84) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v92) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v93) S5000x192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v94) S192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v95) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S128x96 : Shape := ⟨2, ![128, 96]⟩
abbrev S128 : Shape := ⟨1, ![128]⟩
abbrev S128x128 : Shape := ⟨2, ![128, 128]⟩
abbrev S64x192 : Shape := ⟨2, ![64, 192]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S96x128 : Shape := ⟨2, ![96, 128]⟩
abbrev S800000x128 : Shape := ⟨2, ![800000, 128]⟩
abbrev S1x128 : Shape := ⟨2, ![1, 128]⟩
abbrev S50000x128 : Shape := ⟨2, ![50000, 128]⟩
abbrev S50000x1 : Shape := ⟨2, ![50000, 1]⟩
abbrev S50000x192 : Shape := ⟨2, ![50000, 192]⟩
abbrev S192x64 : Shape := ⟨2, ![192, 64]⟩
abbrev S64x1 : Shape := ⟨2, ![64, 1]⟩
abbrev S1x1 : Shape := ⟨2, ![1, 1]⟩
abbrev S50000 : Shape := ⟨1, ![50000]⟩

abbrev nBuf : Space → Nat
  | .hbm => 210
  | .vmem => 0
  | .smem => 0
  | _ => 0

abbrev hbmTy0_0 (i : Nat) : BufTy := match i % 128 with
  | 0 => ⟨S50000x64, .f32⟩
  | 1 => ⟨S2x800000, .i32⟩
  | 2 => ⟨S2x800000, .i32⟩
  | 3 => ⟨S2x800000, .i32⟩
  | 4 => ⟨S800000x32, .f32⟩
  | 5 => ⟨S128x96, .f32⟩
  | 6 => ⟨S128, .f32⟩
  | 7 => ⟨S128, .f32⟩
  | 8 => ⟨S128, .f32⟩
  | 9 => ⟨S128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128, .f32⟩
  | 23 => ⟨S128, .f32⟩
  | 24 => ⟨S128, .f32⟩
  | 25 => ⟨S64x192, .f32⟩
  | 26 => ⟨S64, .f32⟩
  | 27 => ⟨S1x64, .f32⟩
  | 28 => ⟨S1, .f32⟩
  | 29 => ⟨S1x800000, .i32⟩
  | 30 => ⟨S800000, .i32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S800000x96, .f32⟩
  | 41 => ⟨S96x128, .f32⟩
  | 42 => ⟨S800000x128, .f32⟩
  | 43 => ⟨S1x128, .f32⟩
  | 44 => ⟨S800000x128, .f32⟩
  | 45 => ⟨S800000x128, .f32⟩
  | 46 => ⟨S1x800000, .i32⟩
  | 47 => ⟨S800000, .i32⟩
  | 48 => ⟨S_, .f32⟩
  | 49 => ⟨S50000x128, .f32⟩
  | 50 => ⟨S800000x1, .i32⟩
  | 51 => ⟨S50000x128, .f32⟩
  | 52 => ⟨S_, .f32⟩
  | 53 => ⟨S800000x1, .f32⟩
  | 54 => ⟨S_, .f32⟩
  | 55 => ⟨S50000x1, .f32⟩
  | 56 => ⟨S800000x1, .i32⟩
  | 57 => ⟨S50000x1, .f32⟩
  | 58 => ⟨S_, .f32⟩
  | 59 => ⟨S50000x1, .f32⟩
  | 60 => ⟨S50000x1, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S1x800000, .i32⟩
  | 86 => ⟨S800000, .i32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S1x800000, .i32⟩
  | 97 => ⟨S800000, .i32⟩
  | 98 => ⟨S_, .f32⟩
  | 99 => ⟨S50000x128, .f32⟩
  | 100 => ⟨S800000x1, .i32⟩
  | 101 => ⟨S50000x128, .f32⟩
  | 102 => ⟨S_, .f32⟩
  | 103 => ⟨S800000x1, .f32⟩
  | 104 => ⟨S_, .f32⟩
  | 105 => ⟨S50000x1, .f32⟩
  | 106 => ⟨S800000x1, .i32⟩
  | 107 => ⟨S50000x1, .f32⟩
  | 108 => ⟨S_, .f32⟩
  | 109 => ⟨S50000x1, .f32⟩
  | 110 => ⟨S50000x1, .f32⟩
  | 111 => ⟨S50000x128, .f32⟩
  | 112 => ⟨S50000x128, .f32⟩
  | 113 => ⟨S128x128, .f32⟩
  | 114 => ⟨S50000x128, .f32⟩
  | 115 => ⟨S1x128, .f32⟩
  | 116 => ⟨S50000x128, .f32⟩
  | 117 => ⟨S50000x128, .f32⟩
  | 118 => ⟨S128x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x64, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S1x800000, .i32⟩
  | 24 => ⟨S800000, .i32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000x1, .f32⟩
  | 31 => ⟨S_, .f32⟩
  | 32 => ⟨S50000x1, .f32⟩
  | 33 => ⟨S800000x1, .i32⟩
  | 34 => ⟨S50000x1, .f32⟩
  | 35 => ⟨S_, .f32⟩
  | 36 => ⟨S50000x1, .f32⟩
  | 37 => ⟨S50000x1, .f32⟩
  | 38 => ⟨S50000x128, .f32⟩
  | 39 => ⟨S50000x128, .f32⟩
  | 40 => ⟨S128x128, .f32⟩
  | 41 => ⟨S50000x128, .f32⟩
  | 42 => ⟨S1x128, .f32⟩
  | 43 => ⟨S50000x128, .f32⟩
  | 44 => ⟨S50000x128, .f32⟩
  | 45 => ⟨S128x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S128, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x192, .f32⟩
  | 68 => ⟨S192x64, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S64x1, .f32⟩
  | 77 => ⟨S50000x1, .f32⟩
  | 78 => ⟨S1x1, .f32⟩
  | 79 => ⟨S50000x1, .f32⟩
  | 80 => ⟨S50000x1, .f32⟩
  | 81 => ⟨S50000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_c : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_1 : Ref sig .tc := ⟨.hbm, 52, rfl⟩
abbrev main_v20 : Ref sig .tc := ⟨.hbm, 53, rfl⟩
abbrev main_cst_2 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_3 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_call0_cst : Ref sig .tc := ⟨.hbm, 63, rfl⟩
abbrev main_call0_v0 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_4 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_call1_cst : Ref sig .tc := ⟨.hbm, 82, rfl⟩
abbrev main_call1_v0 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_5 : Ref sig .tc := ⟨.hbm, 87, rfl⟩
abbrev main_v47 : Ref sig .tc := ⟨.hbm, 88, rfl⟩
abbrev main_v48 : Ref sig .tc := ⟨.hbm, 89, rfl⟩
abbrev main_c_6 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_7 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_8 : Ref sig .tc := ⟨.hbm, 102, rfl⟩
abbrev main_v59 : Ref sig .tc := ⟨.hbm, 103, rfl⟩
abbrev main_cst_9 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_cst_10 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_11 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_call2_cst : Ref sig .tc := ⟨.hbm, 137, rfl⟩
abbrev main_call2_v0 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_c_12 : Ref sig .tc := ⟨.hbm, 142, rfl⟩
abbrev main_v93 : Ref sig .tc := ⟨.hbm, 143, rfl⟩
abbrev main_v94 : Ref sig .tc := ⟨.hbm, 144, rfl⟩
abbrev main_c_13 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_14 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_15 : Ref sig .tc := ⟨.hbm, 157, rfl⟩
abbrev main_v105 : Ref sig .tc := ⟨.hbm, 158, rfl⟩
abbrev main_cst_16 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_17 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_cst_18 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_call3_cst : Ref sig .tc := ⟨.hbm, 192, rfl⟩
abbrev main_call3_v0 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_call4_cst : Ref sig .tc := ⟨.hbm, 201, rfl⟩
abbrev main_call4_v0 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  transposes_S128x96_S96x128_1_0 : S128x96.Transposes [1, 0] S96x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  slices_S2x800000_S1x800000_1_0 : S2x800000.Slices ![1, 0] S1x800000
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S128x128_S128x128_1_0 : S128x128.Transposes [1, 0] S128x128
  concatenates_S50000x128_S50000x64_S50000x192_d1 : Shape.Concatenates [S50000x128, S50000x64] S50000x192 1
  transposes_S64x192_S192x64_1_0 : S64x192.Transposes [1, 0] S192x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S1x64_S64x1_1_0 : S1x64.Transposes [1, 0] S64x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x64_S800000x1_S800000x64_1_0_n_n_0_1_164_wf : GatherDims.WF S50000x64 S800000x1 S800000x64 [1] [0] [] [0] [] 1 ![1, 64]
  dot_S800000x96_S96x128_S800000x128_1_0_0_1_n_n_wf : DotDims.WF S800000x96 S96x128 S800000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  dot_S50000x128_S128x128_S50000x128_1_0_0_1_n_n_wf : DotDims.WF S50000x128 S128x128 S50000x128 [1] [0] [0] [1] [] []
  dot_S50000x192_S192x64_S50000x64_1_0_0_1_n_n_wf : DotDims.WF S50000x192 S192x64 S50000x64 [1] [0] [0] [1] [] []
  dot_S50000x64_S64x1_S50000x1_1_0_0_1_n_n_wf : DotDims.WF S50000x64 S64x1 S50000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x128_S800000x128_1_0_0_1_n_n : DotDims S800000x96 S96x128 S800000x128 where
  lhsContracting := [1]
  rhsContracting := [0]
  lhsNonContracting := [0]
  rhsNonContracting := [1]
  lhsBatch := []
  rhsBatch := []
  wf := dot_S800000x96_S96x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Spec.lean ====
/-
  The dense stages of the network, as plain functions on arrays of extended reals, index by index.

  Every stage maps row `r` of its first operand to row `r` of its result, the other operands being read whole:
  an affine map `(a · w)[r, j] + b[0, j]`, a normalisation with stored statistics followed by the positive part,
  and their compositions. This is what makes a stage computable one block of rows at a time, in any order.

  The two graph-convolution stages come in two arrangements of one sum: over the 256 columns of the row
  `[agg | h]` against the rows of the stacked weight, or as the 128-column product with the neighbour weight, the
  offset, and the 128-column product with the self weight added in that order. `lin_split` is the law joining them:
  a finite sum split in two halves, and `(A + B) + b = (A + b) + B`, both valid on the extended reals without
  any finiteness (addition there is a commutative monoid).
-/
import Idealize.ShloMosaic.PureOps.Ideal
import Idealize.ShloMosaic.Lib.ValueIdx

noncomputable section

namespace Cert.Spec

open Idealize.ShloMosaic Idealize.ShloMosaic.ValueIdx

/-- A two-axis array of extended reals. -/
abbrev Arr (a b : Nat) : Type := (⟨2, ![a, b]⟩ : Shape).Idx → EReal

/-- The variance offset of the normalisation: the float word both programs carry. -/
abbrev eps : EReal := Ideal.ofBits .f32 0x3727C5AC#32

/-- The float zero word. -/
abbrev zero : EReal := Ideal.ofBits .f32 0x00000000#32

/-- A vector laid out as the one row of a one-row array. -/
def row {n : Nat} (x : (⟨1, ![n]⟩ : Shape).Idx → EReal) : Arr 1 n := fun i => x (ix1 (i 1))

/-- The affine map `(a · w)[r, j] + b[0, j]`. -/
def lin {M K N : Nat} (a : Arr M K) (w : Arr K N) (b : Arr 1 N) : Arr M N :=
  fun i => (∑ k : Fin K, a (ix2 (i 0) k) * w (ix2 k (i 1))) + b (ix2 0 (i 1))

/-- Normalisation with stored mean `mu` and variance `v`, scale `g` and shift `be`, then the positive part. -/
def bnRelu (y g be mu v : EReal) : EReal := max (g * (y - mu) * Ideal.rsqrt (v + eps) + be) zero

/-- The first convolution's update: positive part of the aggregated messages, normalised, positive part. -/
def post1 (h : Arr 50000 128) (g be mu v : Arr 1 128) : Arr 50000 128 :=
  fun i => bnRelu (max (h i) zero) (g (ix2 0 (i 1))) (be (ix2 0 (i 1))) (mu (ix2 0 (i 1))) (v (ix2 0 (i 1)))

/-- A graph-convolution stage over the joined row `[agg | h]` and the stacked weight. -/
def sageCat (cat : Arr 50000 256) (wT : Arr 256 128) (b g be mu v : Arr 1 128) : Arr 50000 128 :=
  fun i => bnRelu (lin cat wT b i) (g (ix2 0 (i 1))) (be (ix2 0 (i 1))) (mu (ix2 0 (i 1))) (v (ix2 0 (i 1)))

/-- The same stage as two products: neighbours' mean against its weight plus the offset, then the node's own
    features against theirs. -/
def sageTwo (agg h : Arr 50000 128) (wl wr : Arr 128 128) (b g be mu v : Arr 1 128) : Arr 50000 128 :=
  fun i => bnRelu (lin agg wl b i + ∑ k : Fin 128, h (ix2 (i 0) k) * wr (ix2 k (i 1)))
    (g (ix2 0 (i 1))) (be (ix2 0 (i 1))) (mu (ix2 0 (i 1))) (v (ix2 0 (i 1)))

/-- The read-out: affine, positive part, affine to one column. -/
def mlp (z : Arr 50000 192) (w4 : Arr 192 64) (b4 : Arr 1 64) (w5 : Arr 64 1) (b5 : Arr 1 1) : Arr 50000 1 :=
  fun i => (∑ k : Fin 64, max (lin z w4 b4 (ix2 (i 0) k)) zero * w5 (ix2 k (i 1))) + b5 (ix2 0 (i 1))

/-- One sum over the joined 256 columns is the two 128-column sums, the offset moved between them. -/
theorem lin_split (cat : Arr 50000 256) (wT : Arr 256 128) (b : Arr 1 128) (agg h : Arr 50000 128) (wl wr : Arr 128 128)
    (hc1 : ∀ (r : Fin 50000) (k : Fin 128), cat (ix2 r ⟨k.val, by omega⟩) = agg (ix2 r k))
    (hc2 : ∀ (r : Fin 50000) (k : Fin 128), cat (ix2 r ⟨128 + k.val, by omega⟩) = h (ix2 r k))
    (hw1 : ∀ (k : Fin 128) (j : Fin 128), wT (ix2 ⟨k.val, by omega⟩ j) = wl (ix2 k j))
    (hw2 : ∀ (k : Fin 128) (j : Fin 128), wT (ix2 ⟨128 + k.val, by omega⟩ j) = wr (ix2 k j))
    (i : (⟨2, ![50000, 128]⟩ : Shape).Idx) :
    lin cat wT b i = lin agg wl b i + ∑ k : Fin 128, h (ix2 (i 0) k) * wr (ix2 k (i 1)) := by
  unfold lin
  have hs := Fin.sum_univ_add (a := 128) (b := 128)
    (fun k : Fin (128 + 128) => cat (ix2 (i 0) k) * wT (ix2 k (i 1)))
  have e1 : ∀ k : Fin 128, cat (ix2 (i 0) (Fin.castAdd 128 k)) * wT (ix2 (Fin.castAdd 128 k) (i 1))
      = agg (ix2 (i 0) k) * wl (ix2 k (i 1)) := fun k => by
    rw [← hc1 (i 0) k, ← hw1 k (i 1)]; rfl
  have e2 : ∀ k : Fin 128, cat (ix2 (i 0) (Fin.natAdd 128 k)) * wT (ix2 (Fin.natAdd 128 k) (i 1))
      = h (ix2 (i 0) k) * wr (ix2 k (i 1)) := fun k => by
    rw [← hc2 (i 0) k, ← hw2 k (i 1)]; rfl
  have hs' : (∑ k : Fin 256, cat (ix2 (i 0) k) * wT (ix2 k (i 1)))
      = (∑ k : Fin 128, agg (ix2 (i 0) k) * wl (ix2 k (i 1))) + ∑ k : Fin 128, h (ix2 (i 0) k) * wr (ix2 k (i 1)) := by
    refine hs.trans ?_
    rw [Finset.sum_congr rfl (fun k _ => e1 k), Finset.sum_congr rfl (fun k _ => e2 k)]
  rw [hs', add_right_comm]

end Cert.Spec

end
-- ==== Proof.Ker4.lean ====
/-
  The read-out on the kernel's side.

  The pipeline walks the 50000 node rows in 10 blocks of 5000. At a point `t` the body reads rows `5000 t …` of the
  joined array `[h | x]` (192 columns), the whole 192 × 64 and 64 × 1 weights and their offsets, and stores
  `relu(rows · w4 + b4) · w5 + b5`, one column. Entry `r` of the result depends on row `r` of the joined array only, and the
  10 blocks tile the result: the array after the region is `Spec.mlp` of the five arrays the region finds.
-/
import proofs.«146433_j64295660421275_1_alg».proof.Proof.Gen.KernelIdeal.Frame
import proofs.«146433_j64295660421275_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand4

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-! ### The matrix product `dot_S5000x192_S192x64_S5000x64_1_0_0_1_n_n` at an index -/

theorem lA_0 (i : S5000x64.Idx) (q : dot_S5000x192_S192x64_S5000x64_1_0_0_1_n_n.contr.Idx) :
    (dot_S5000x192_S192x64_S5000x64_1_0_0_1_n_n.lhsIdx i q 0).val = (i 0).val := by
  unfold DotDims.lhsIdx
  rw [dif_neg (show ¬(0 : Fin S5000x192.rank) ∈ dot_S5000x192_S192x64_S5000x64_1_0_0_1_n_n.lhsBatch by decide), dif_pos (show (0 : Fin S5000x192.rank) ∈ dot_S5000x192_S192x64_S5000x64_1_0_0_1_n_n.lhsNonContracting by decide)]
  rfl
theorem lA_1 (i : S5000x64.Idx) (q : dot_S5000x192_S192x64_S5000x64_1_0_0_1_n_n.contr.Idx) :
    (dot_S5000x192_S192x64_S5000x64_1_0_0_1_n_n.lhsIdx i q 1).val = (q ⟨0, by decide⟩).val :=
  dot_S5000x192_S192x64_S5000x64_1_0_0_1_n_n.lhsIdx_val_of_single rfl i q
theorem rA_0 (i : S5000x64.Idx) (q : dot_S5000x192_S192x64_S5000x64_1_0_0_1_n_n.contr.Idx) :
    (dot_S5000x192_S192x64_S5000x64_1_0_0_1_n_n.rhsIdx i q 0).val = (q ⟨0, by decide⟩).val :=
  dot_S5000x192_S192x64_S5000x64_1_0_0_1_n_n.rhsIdx_val_of_single rfl i q
theorem rA_1 (i : S5000x64.Idx) (q : dot_S5000x192_S192x64_S5000x64_1_0_0_1_n_n.contr.Idx) :
    (dot_S5000x192_S192x64_S5000x64_1_0_0_1_n_n.rhsIdx i q 1).val = (i 1).val := by
  unfold DotDims.rhsIdx
  rw [dif_neg (show ¬(1 : Fin S192x64.rank) ∈ dot_S5000x192_S192x64_S5000x64_1_0_0_1_n_n.rhsBatch by decide), dif_pos (show (1 : Fin S192x64.rank) ∈ dot_S5000x192_S192x64_S5000x64_1_0_0_1_n_n.rhsNonContracting by decide)]
  rfl

/-- Entry `(p, q)` of the product into the zero accumulator is the sum over the 192 contracted positions of row `p`
    of the left operand against column `q` of the right. -/
theorem mmA_apply {φ₁ φ₂ : FTy} (l : FVec Ideal S5000x192 φ₁) (r : FVec Ideal S192x64 φ₂) (p : Fin 5000) (q : Fin 64) :
    matmul dot_S5000x192_S192x64_S5000x64_1_0_0_1_n_n none l r (constant S5000x64 .f32 0x00000000#32) (ix2 p q)
      = ∑ k : Fin 192, l (ix2 p k) * r (ix2 k q) := by
  show FloatOps.matmul dot_S5000x192_S192x64_S5000x64_1_0_0_1_n_n none l r (constant S5000x64 .f32 0x00000000#32) (ix2 p q) = _
  rw [Ideal.matmul_constant_zero_apply, ← Equiv.sum_comp (contrEquiv1 dot_S5000x192_S192x64_S5000x64_1_0_0_1_n_n 192 rfl rfl).symm]
  refine Finset.sum_congr rfl fun k _ => ?_
  have hk := contrEquiv1_symm_val dot_S5000x192_S192x64_S5000x64_1_0_0_1_n_n 192 rfl rfl k
  have el : dot_S5000x192_S192x64_S5000x64_1_0_0_1_n_n.lhsIdx (ix2 p q) ((contrEquiv1 dot_S5000x192_S192x64_S5000x64_1_0_0_1_n_n 192 rfl rfl).symm k) = ix2 p k := funext fun a => Fin.ext (by
    match a with
    | ⟨0, _⟩ => exact lA_0 _ _
    | ⟨1, _⟩ => exact (lA_1 _ _).trans hk)
  have er : dot_S5000x192_S192x64_S5000x64_1_0_0_1_n_n.rhsIdx (ix2 p q) ((contrEquiv1 dot_S5000x192_S192x64_S5000x64_1_0_0_1_n_n 192 rfl rfl).symm k) = ix2 k q := funext fun a => Fin.ext (by
    match a with
    | ⟨0, _⟩ => exact (rA_0 _ _).trans hk
    | ⟨1, _⟩ => exact rA_1 _ _)
  rw [el, er]

/-! ### The matrix product `dot_S5000x64_S64x1_S5000x1_1_0_0_1_n_n` at an index -/

theorem lB_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lB_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rB_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rB_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- Entry `(p, q)` of the product into the zero accumulator is the sum over the 64 contracted positions of row `p`
    of the left operand against column `q` of the right. -/
theorem mmB_apply {φ₁ φ₂ : FTy} (l : FVec Ideal S5000x64 φ₁) (r : FVec Ideal S64x1 φ₂) (p : Fin 5000) (q : Fin 1) :
    matmul dot_S5000x64_S64x1_S5000x1_1_0_0_1_n_n none l r (constant S5000x1 .f32 0x00000000#32) (ix2 p q)
      = ∑ k : Fin 64, l (ix2 p k) * r (ix2 k q) := by
  show FloatOps.matmul dot_S5000x64_S64x1_S5000x1_1_0_0_1_n_n none l r (constant S5000x1 .f32 0x00000000#32) (ix2 p q) = _
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p q) ((contrEquiv1 dot_S5000x64_S64x1_S5000x1_1_0_0_1_n_n 64 rfl rfl).symm k) = ix2 p k := funext fun a => Fin.ext (by
    match a with
    | ⟨0, _⟩ => exact lB_0 _ _
    | ⟨1, _⟩ => exact (lB_1 _ _).trans hk)
  have er : dot_S5000x64_S64x1_S5000x1_1_0_0_1_n_n.rhsIdx (ix2 p q) ((contrEquiv1 dot_S5000x64_S64x1_S5000x1_1_0_0_1_n_n 64 rfl rfl).symm k) = ix2 k q := funext fun a => Fin.ext (by
    match a with
    | ⟨0, _⟩ => exact (rB_0 _ _).trans hk
    | ⟨1, _⟩ => exact rB_1 _ _)
  rw [el, er]

/-- A one-row array of 64 spread over 5000 rows reads its one row. -/
theorem bcastA_apply (x : S1x64.Idx → EReal) (h : S1x64.Broadcasts S5000x64) (p : Fin 5000) (q : Fin 64) :
    broadcastTo S5000x64 x h (ix2 p q) = x (ix2 0 q) :=
  broadcastTo_apply x h (ix2 p q) (ix2 0 q) fun a => by
    match a with
    | ⟨0, _⟩ => rfl
    | ⟨1, _⟩ => rfl

/-- A one-entry array spread over 5000 rows reads its entry. -/
theorem bcastB_apply (x : S1x1.Idx → EReal) (h : S1x1.Broadcasts S5000x1) (p : Fin 5000) (q : Fin 1) :
    broadcastTo S5000x1 x h (ix2 p q) = x (ix2 0 q) :=
  broadcastTo_apply x h (ix2 p q) (ix2 0 q) fun a => by
    match a with
    | ⟨0, _⟩ => rfl
    | ⟨1, _⟩ => show q.val = if (1 : Nat) = 1 then 0 else q.val; rw [if_pos rfl]; have := q.isLt; omega

/-- The body's stored value at `(p, q)`: the positive part of row `p` against the first weight plus its offset, against
    the second weight's one column, plus the second offset. -/
theorem pay_apply (x0 : Vec Ideal S5000x192 .f32) (x1 : Vec Ideal S192x64 .f32) (x2 : Vec Ideal S1x64 .f32)
    (x3 : Vec Ideal S64x1 .f32) (x4 : Vec Ideal S1x1 .f32) (p : Fin 5000) (q : Fin 1) :
    k4_pay1 x0 x1 x2 x3 x4 (ix2 p q)
      = (∑ k : Fin 64, max ((∑ l : Fin 192, x0 (ix2 p l) * x1 (ix2 l k)) + x2 (ix2 0 k)) zero * x3 (ix2 k q))
        + x4 (ix2 0 q) := by
  unfold k4_pay1
  simp only [shapeCast_self, addf_apply]
  rw [mmB_apply, bcastB_apply]
  refine congrArg (· + x4 (ix2 0 q)) (Finset.sum_congr rfl fun k _ => ?_)
  simp only [truncf_apply, maximumf_apply, addf_apply, broadcast_apply]
  rw [mmA_apply, bcastA_apply]
  rfl

/-- What the body stores for a block of rows starting at row `5000 t`, against the whole arrays. -/
theorem blk_eq (A : Arr 50000 192) (W4 : Arr 192 64) (B4 : Arr 1 64) (W5 : Arr 64 1) (B5 : Arr 1 1)
    (x0 : Vec Ideal S5000x192 .f32) (x1 : Vec Ideal S192x64 .f32) (x2 : Vec Ideal S1x64 .f32)
    (x3 : Vec Ideal S64x1 .f32) (x4 : Vec Ideal S1x1 .f32) (t : Nat)
    (h0 : ∀ (y : S5000x192.Idx) (i : S50000x192.Idx), (i 0).val = t * 5000 + (y 0).val → (i 1).val = (y 1).val → x0 y = A i)
    (h1 : ∀ y : S192x64.Idx, x1 y = W4 y) (h2 : ∀ y : S1x64.Idx, x2 y = B4 y)
    (h3 : ∀ y : S64x1.Idx, x3 y = W5 y) (h4 : ∀ y : S1x1.Idx, x4 y = B5 y)
    (y : S5000x1.Idx) (i : S50000x1.Idx) (hi0 : (i 0).val = t * 5000 + (y 0).val) (hi1 : (i 1).val = (y 1).val) :
    k4_pay1 x0 x1 x2 x3 x4 y = mlp A W4 B4 W5 B5 i := by
  obtain ⟨p, q, rfl⟩ : ∃ (p : Fin 5000) (q : Fin 1), y = ix2 p q := ⟨y 0, y 1, eq_ix2 y⟩
  rw [pay_apply]
  unfold mlp lin
  have hq : i 1 = q := Fin.ext hi1
  have hs : (∑ k : Fin 64, max ((∑ l : Fin 192, x0 (ix2 p l) * x1 (ix2 l k)) + x2 (ix2 0 k)) zero * x3 (ix2 k q))
      = ∑ k : Fin 64, max ((∑ l : Fin 192, A (ix2 (i 0) l) * W4 (ix2 l k)) + B4 (ix2 0 k)) zero * W5 (ix2 k q) :=
    Finset.sum_congr rfl fun k _ => by
      have hl : (∑ l : Fin 192, x0 (ix2 p l) * x1 (ix2 l k)) = ∑ l : Fin 192, A (ix2 (i 0) l) * W4 (ix2 l k) :=
        Finset.sum_congr rfl fun l _ => by rw [h0 (ix2 p l) (ix2 (i 0) l) hi0 rfl, h1]
      rw [hl, h2, h3]
  rw [hs, h4, hq]

/-- The relations between the printed index maps, decided once over the 10 grid points: the row windows sit at
    block `t`, the others at block 0. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Window 0's block at point `t` is rows `5000 t …` of the array the region finds. -/
theorem iblk_0 (c : Dev nD) (t : Fin cfg4.N) (y : S5000x192.Idx) (i : S50000x192.Idx)
    (h0 : (i 0).val = t.val * 5000 + (y 0).val) (h1 : (i 1).val = (y 1).val) :
    (iblk4 V c 0 t : Vec Ideal S5000x192 .f32) y = (V c main_v93 : S50000x192.Idx → EReal) i := by
  obtain ⟨e0_0, e0_1, -, -, -, -, -, -, -, -, -, -⟩ := idx_facts t
  unfold iblk4
  rw [View.read_apply]
  show V c main_v93 _ = V c main_v93 i
  congr 1
  funext a
  apply Fin.ext
  match a with
  | ⟨0, _⟩ => show win4_0.index t 0 * 5000 + 1 * (y 0).val = (i 0).val; rw [e0_0, h0]; omega
  | ⟨1, _⟩ => show win4_0.index t 1 * 192 + 1 * (y 1).val = (i 1).val; rw [e0_1, h1]; omega

/-- Window 1's block at every point is its whole array. -/
theorem iblk_1 (c : Dev nD) (t : Fin cfg4.N) (y : S192x64.Idx) :
    (iblk4 V c 1 t : Vec Ideal S192x64 .f32) y = (V c main_v94 : S192x64.Idx → EReal) y := by
  obtain ⟨-, -, e1_0, e1_1, -, -, -, -, -, -, -, -⟩ := idx_facts t
  unfold iblk4
  rw [View.read_apply]
  show V c main_v94 _ = V c main_v94 y
  congr 1
  funext a
  apply Fin.ext
  match a with
  | ⟨0, _⟩ => show win4_1.index t 0 * 192 + 1 * (y 0).val = (y 0).val; rw [e1_0]; omega
  | ⟨1, _⟩ => show win4_1.index t 1 * 64 + 1 * (y 1).val = (y 1).val; rw [e1_1]; omega

/-- Window 2's block at every point is its whole array. -/
theorem iblk_2 (c : Dev nD) (t : Fin cfg4.N) (y : S1x64.Idx) :
    (iblk4 V c 2 t : Vec Ideal S1x64 .f32) y = (V c main_v96 : S1x64.Idx → EReal) y := by
  obtain ⟨-, -, -, -, e2_0, e2_1, -, -, -, -, -, -⟩ := idx_facts t
  unfold iblk4
  rw [View.read_apply]
  show V c main_v96 _ = V c main_v96 y
  congr 1
  funext a
  apply Fin.ext
  match a with
  | ⟨0, _⟩ => show win4_2.index t 0 * 1 + 1 * (y 0).val = (y 0).val; rw [e2_0]; omega
  | ⟨1, _⟩ => show win4_2.index t 1 * 64 + 1 * (y 1).val = (y 1).val; rw [e2_1]; omega

/-- Window 3's block at every point is its whole array. -/
theorem iblk_3 (c : Dev nD) (t : Fin cfg4.N) (y : S64x1.Idx) :
    (iblk4 V c 3 t : Vec Ideal S64x1 .f32) y = (V c main_v95 : S64x1.Idx → EReal) y := by
  obtain ⟨-, -, -, -, -, -, e3_0, e3_1, -, -, -, -⟩ := idx_facts t
  unfold iblk4
  rw [View.read_apply]
  show V c main_v95 _ = V c main_v95 y
  congr 1
  funext a
  apply Fin.ext
  match a with
  | ⟨0, _⟩ => show win4_3.index t 0 * 64 + 1 * (y 0).val = (y 0).val; rw [e3_0]; omega
  | ⟨1, _⟩ => show win4_3.index t 1 * 1 + 1 * (y 1).val = (y 1).val; rw [e3_1]; omega

/-- Window 4's block at every point is its whole array. -/
theorem iblk_4 (c : Dev nD) (t : Fin cfg4.N) (y : S1x1.Idx) :
    (iblk4 V c 4 t : Vec Ideal S1x1 .f32) y = (V c main_v97 : S1x1.Idx → EReal) y := by
  obtain ⟨-, -, -, -, -, -, -, -, e4_0, e4_1, -, -⟩ := idx_facts t
  unfold iblk4
  rw [View.read_apply]
  show V c main_v97 _ = V c main_v97 y
  congr 1
  funext a
  apply Fin.ext
  match a with
  | ⟨0, _⟩ => show win4_4.index t 0 * 1 + 1 * (y 0).val = (y 0).val; rw [e4_0]; omega
  | ⟨1, _⟩ => show win4_4.index t 1 * 1 + 1 * (y 1).val = (y 1).val; rw [e4_1]; omega

/-- What point `t` writes back is block `t` of `Spec.mlp` of the arrays the region finds. -/
theorem flushed_eq (c : Dev nD) (t : Fin cfg4.N) :
    (dat4 V c).flushed 5 t = ((cfg4.win 5).blk t).view.read (Elt Ideal)
      (mlp (V c main_v93) (V c main_v94) (V c main_v96) (V c main_v95) (V c main_v97) : S50000x1.Idx → EReal) := by
  show (cfg4.win 5).cut (grid4.coords t) ((dat4 V c).after 5 t) = _
  rw [after4_5]
  unfold out4_5
  rw [View.canon_unit_zero hz]
  simp only [View.ld_unit_zero (S := S5000x192) hz, View.ld_unit_zero (S := S192x64) hz, View.ld_unit_zero (S := S1x64) hz, View.ld_unit_zero (S := S64x1) hz, View.ld_unit_zero (S := S1x1) hz]
  obtain ⟨-, -, -, -, -, -, -, -, -, -, e5_0, e5_1⟩ := idx_facts t
  funext j
  rw [View.read_apply]
  refine blk_eq (V c main_v93) (V c main_v94) (V c main_v96) (V c main_v95) (V c main_v97) (iblk4 V c 0 t) (iblk4 V c 1 t) (iblk4 V c 2 t) (iblk4 V c 3 t) (iblk4 V c 4 t) t.val
    (fun y i h0 h1 => iblk_0 V c t y i h0 h1) (fun y => iblk_1 V c t y) (fun y => iblk_2 V c t y) (fun y => iblk_3 V c t y) (fun y => iblk_4 V c t y) j _ ?_ ?_
  · show win4_5.index t 0 * 5000 + 1 * (j 0).val = t.val * 5000 + (j 0).val; rw [e5_0]; omega
  · show win4_5.index t 1 * 1 + 1 * (j 1).val = (j 1).val; rw [e5_1]; omega

/-- An index of the result is in point `t`'s block iff each coordinate is in the block's range on its axis. -/
theorem mem_blk (t : Fin cfg4.N) (i : S50000x1.Idx) :
    i ∈ ((cfg4.win 5).blk t).view.set ↔ ∀ a : Fin 2, win4_5.index t a * S5000x1.size a ≤ (i a).val
      ∧ (i a).val < win4_5.index t a * S5000x1.size a + S5000x1.size a := by
  show i ∈ ((View.whole main_v98).slice (win4_5.rect t)).set ↔ _
  rw [View.set_slice_whole, Rect.mem_set_unit]
  exact Iff.rfl

/-- The 10 blocks of 5000 rows tile the result: row `r` is in block `r / 5000`. So the result array after the region
    is `Spec.mlp` of the arrays the region finds. -/
theorem final (c : Dev nD) :
    (dat4 V c).arrAt 5 cfg4.N = (mlp (V c main_v93) (V c main_v94) (V c main_v96) (V c main_v95) (V c main_v97) : S50000x1.Idx → EReal) :=
  (dat4 V c).arrAt_eq_of_cover 5 _ (fun t _ => flushed_eq V c t) fun i => by
    have hi0 : (i 0).val < 50000 := (i 0).isLt
    have hi1 : (i 1).val < 1 := (i 1).isLt
    have hN : cfg4.N = 10 := N_4
    have ht : (i 0).val / 5000 < cfg4.N := by rw [hN]; omega
    obtain ⟨-, -, -, -, -, -, -, -, -, -, e5_0, e5_1⟩ := idx_facts ⟨(i 0).val / 5000, ht⟩
    refine ⟨⟨(i 0).val / 5000, ht⟩, flush4_5 _, ?_⟩
    rw [mem_blk]
    intro a
    match a with
    | ⟨0, _⟩ =>
      show win4_5.index ⟨(i 0).val / 5000, ht⟩ 0 * 5000 ≤ (i 0).val ∧ (i 0).val < win4_5.index ⟨(i 0).val / 5000, ht⟩ 0 * 5000 + 5000
      rw [e5_0]; show (i 0).val / 5000 * 5000 ≤ (i 0).val ∧ (i 0).val < (i 0).val / 5000 * 5000 + 5000; omega
    | ⟨1, _⟩ =>
      show win4_5.index ⟨(i 0).val / 5000, ht⟩ 1 * 1 ≤ (i 1).val ∧ (i 1).val < win4_5.index ⟨(i 0).val / 5000, ht⟩ 1 * 1 + 1
      rw [e5_1]; omega

end Cert.KernelIdeal.Hand4

end
-- ==== Proof.Ref4.lean ====
/-
  The read-out on the reference's side: the joined array `[h | x]` against the transposed first weight plus its offset,
  positive part, against the transposed second weight (one column) plus its offset — `Spec.mlp`, read index by index.
-/
import proofs.«146433_j64295660421275_1_alg».proof.Proof.Gen.ReferenceIdeal.Read
import proofs.«146433_j64295660421275_1_alg».proof.Proof.Spec

set_option maxRecDepth 16384

noncomputable section

open Idealize.ShloMosaic Idealize.ShloMosaic.ValueIdx

namespace Cert.ReferenceIdeal.Hand4

open Cert.ReferenceIdeal Cert.ReferenceIdeal.Read Cert.Spec

theorem mlp_eq (x0 : (⟨S50000x64, .f32⟩ : BufTy).Contents (Elt Ideal)) (x1 x2 x3 : (⟨S2x800000, .i32⟩ : BufTy).Contents (Elt Ideal)) (x4 : (⟨S800000x32, .f32⟩ : BufTy).Contents (Elt Ideal)) (x5 : (⟨S128x96, .f32⟩ : BufTy).Contents (Elt Ideal)) (x6 x7 x8 x9 x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 x15 x16 x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 x22 x23 x24 : (⟨S128, .f32⟩ : BufTy).Contents (Elt Ideal)) (x25 : (⟨S64x192, .f32⟩ : BufTy).Contents (Elt Ideal)) (x26 : (⟨S64, .f32⟩ : BufTy).Contents (Elt Ideal)) (x27 : (⟨S1x64, .f32⟩ : BufTy).Contents (Elt Ideal)) (x28 : (⟨S1, .f32⟩ : BufTy).Contents (Elt Ideal)) :
    val_main_v148 (F := Ideal) x0 x1 x2 x3 x4 x5 x6 x7 x8 x9 x10 x11 x12 x13 x14 x15 x16 x17 x18 x19 x20 x21 x22 x23 x24 x25 x26 x27 x28
      = mlp (val_main_v137 (F := Ideal) x0 x1 x2 x3 x4 x5 x6 x7 x8 x9 x10 x11 x12 x13 x14 x15 x16 x17 x18 x19 x20 x21 x22 x23 x24) (val_main_v138 (F := Ideal) x25) (row x26) (val_main_v144 (F := Ideal) x27) (row x28) := by
  funext i
  obtain ⟨p, q, rfl⟩ : ∃ (p : Fin 50000) (q : Fin 1), i = ix2 p q := ⟨i 0, i 1, eq_ix2 i⟩
  simp only [val_main_v148_apply, val_main_v145_apply, val_main_v143_apply, val_main_v142_apply, val_main_v139_apply, val_main_v141_apply, val_main_v140_apply, val_main_call4_v0_apply, val_main_call4_cst_apply, val_main_v147_apply, val_main_v146_apply]
  have el_o : ∀ k : Fin 64, lidx_main_v145 (ix2 p q) k = ix2 p k := fun k => funext fun a => Fin.ext (by
    match a with
    | ⟨0, _⟩ => rfl
    | ⟨1, _⟩ => rfl)
  have er_o : ∀ k : Fin 64, ridx_main_v145 (ix2 p q) k = ix2 k q := fun k => funext fun a => Fin.ext (by
    match a with
    | ⟨0, _⟩ => rfl
    | ⟨1, _⟩ => rfl)
  have el_i : ∀ (k : Fin 64) (l : Fin 192), lidx_main_v139 (ix2 p k) l = ix2 p l := fun k l => funext fun a => Fin.ext (by
    match a with
    | ⟨0, _⟩ => rfl
    | ⟨1, _⟩ => rfl)
  have er_i : ∀ (k : Fin 64) (l : Fin 192), ridx_main_v139 (ix2 p k) l = ix2 l k := fun k l => funext fun a => Fin.ext (by
    match a with
    | ⟨0, _⟩ => rfl
    | ⟨1, _⟩ => rfl)
  have e_b4 : ∀ k : Fin 64, idx_main_v140 (idx_main_v141 (ix2 p k)) = ix1 k := fun k => funext fun a => Fin.ext (by
    match a with
    | ⟨0, _⟩ => rfl)
  have e_b5 : idx_main_v146 (idx_main_v147 (ix2 p q)) = ix1 q := funext fun a => Fin.ext (by
    match a with
    | ⟨0, _⟩ => show (0 : Nat) = q.val; have := q.isLt; omega)
  simp only [el_o, er_o, el_i, er_i, e_b4, e_b5]
  rfl

/-- The result is the read-out's one column laid out as a vector. -/
theorem out_eq (x0 : (⟨S50000x64, .f32⟩ : BufTy).Contents (Elt Ideal)) (x1 x2 x3 : (⟨S2x800000, .i32⟩ : BufTy).Contents (Elt Ideal)) (x4 : (⟨S800000x32, .f32⟩ : BufTy).Contents (Elt Ideal)) (x5 : (⟨S128x96, .f32⟩ : BufTy).Contents (Elt Ideal)) (x6 x7 x8 x9 x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 x15 x16 x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 x22 x23 x24 : (⟨S128, .f32⟩ : BufTy).Contents (Elt Ideal)) (x25 : (⟨S64x192, .f32⟩ : BufTy).Contents (Elt Ideal)) (x26 : (⟨S64, .f32⟩ : BufTy).Contents (Elt Ideal)) (x27 : (⟨S1x64, .f32⟩ : BufTy).Contents (Elt Ideal)) (x28 : (⟨S1, .f32⟩ : BufTy).Contents (Elt Ideal)) (r : Fin 50000) :
    val_main_v149 (F := Ideal) x0 x1 x2 x3 x4 x5 x6 x7 x8 x9 x10 x11 x12 x13 x14 x15 x16 x17 x18 x19 x20 x21 x22 x23 x24 x25 x26 x27 x28 (ix1 r) = val_main_v148 (F := Ideal) x0 x1 x2 x3 x4 x5 x6 x7 x8 x9 x10 x11 x12 x13 x14 x15 x16 x17 x18 x19 x20 x21 x22 x23 x24 x25 x26 x27 x28 (ix2 r 0) := by
  rw [val_main_v149_apply]
  congr 1
  funext a
  apply Fin.ext
  match a with
  | ⟨0, _⟩ => show r.val / 1 = r.val; omega
  | ⟨1, _⟩ => rfl

end Cert.ReferenceIdeal.Hand4

end
-- ==== Proof.Keep.lean ====
/-
  The arguments a later host stretch reads still hold their launch contents when it reads them.

  The buffer contents at the segment boundaries are a fold from the launch memory. No host operation and no dense
  stage writes an argument buffer (a stage's windows are all buffers computed by the stretch before it), so the fold
  read at an argument walks back, boundary by boundary, to the launch memory.
-/
import proofs.«146433_j64295660421275_1_alg».proof.Proof.Gen.KernelIdeal.Frame

set_option maxRecDepth 16384

noncomputable section

namespace Cert.KernelIdeal.HandKeep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Argument 1 still holds its launch contents at boundary 2: no earlier segment writes it. -/
theorem arg1_at_W2 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 7 still holds its launch contents at boundary 2: no earlier segment writes it. -/
theorem arg7_at_W2 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Argument 8 still holds its launch contents at boundary 2: no earlier segment writes it. -/
theorem arg8_at_W2 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Argument 9 still holds its launch contents at boundary 2: no earlier segment writes it. -/
theorem arg9_at_W2 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- Argument 10 still holds its launch contents at boundary 2: no earlier segment writes it. -/
theorem arg10_at_W2 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- Argument 2 still holds its launch contents at boundary 4: no earlier segment writes it. -/
theorem arg2_at_W4 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 11 still holds its launch contents at boundary 4: no earlier segment writes it. -/
theorem arg11_at_W4 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- Argument 12 still holds its launch contents at boundary 4: no earlier segment writes it. -/
theorem arg12_at_W4 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- Argument 13 still holds its launch contents at boundary 4: no earlier segment writes it. -/
theorem arg13_at_W4 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- Argument 14 still holds its launch contents at boundary 4: no earlier segment writes it. -/
theorem arg14_at_W4 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-- Argument 15 still holds its launch contents at boundary 4: no earlier segment writes it. -/
theorem arg15_at_W4 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-- Argument 16 still holds its launch contents at boundary 4: no earlier segment writes it. -/
theorem arg16_at_W4 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

/-- Argument 17 still holds its launch contents at boundary 4: no earlier segment writes it. -/
theorem arg17_at_W4 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

/-- Argument 3 still holds its launch contents at boundary 6: no earlier segment writes it. -/
theorem arg3_at_W6 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 18 still holds its launch contents at boundary 6: no earlier segment writes it. -/
theorem arg18_at_W6 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

/-- Argument 19 still holds its launch contents at boundary 6: no earlier segment writes it. -/
theorem arg19_at_W6 (c : Dev nD) : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

/-- Argument 20 still holds its launch contents at boundary 6: no earlier segment writes it. -/
theorem arg20_at_W6 (c : Dev nD) : W6 m ρ c (Proc.devRef .tc main_arg20) = m ((c : Thread nD τ).loc main_arg20) :=
  calc W6 m ρ c (Proc.devRef .tc main_arg20)
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

/-- Argument 21 still holds its launch contents at boundary 6: no earlier segment writes it. -/
theorem arg21_at_W6 (c : Dev nD) : W6 m ρ c (Proc.devRef .tc main_arg21) = m ((c : Thread nD τ).loc main_arg21) :=
  calc W6 m ρ c (Proc.devRef .tc main_arg21)
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

/-- Argument 22 still holds its launch contents at boundary 6: no earlier segment writes it. -/
theorem arg22_at_W6 (c : Dev nD) : W6 m ρ c (Proc.devRef .tc main_arg22) = m ((c : Thread nD τ).loc main_arg22) :=
  calc W6 m ρ c (Proc.devRef .tc main_arg22)
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

/-- Argument 23 still holds its launch contents at boundary 6: no earlier segment writes it. -/
theorem arg23_at_W6 (c : Dev nD) : W6 m ρ c (Proc.devRef .tc main_arg23) = m ((c : Thread nD τ).loc main_arg23) :=
  calc W6 m ρ c (Proc.devRef .tc main_arg23)
    _ = W5 m ρ c (Proc.devRef .tc main_arg23) := W6_of_ne m ρ c main_arg23 (by decide)
    _ = W4 m ρ c (Proc.devRef .tc main_arg23) := StableHlo.after_of_forall_not_mem (b := Proc.devRef .tc main_arg23) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl

/-- Argument 24 still holds its launch contents at boundary 6: no earlier segment writes it. -/
theorem arg24_at_W6 (c : Dev nD) : W6 m ρ c (Proc.devRef .tc main_arg24) = m ((c : Thread nD τ).loc main_arg24) :=
  calc W6 m ρ c (Proc.devRef .tc main_arg24)
    _ = W5 m ρ c (Proc.devRef .tc main_arg24) := W6_of_ne m ρ c main_arg24 (by decide)
    _ = W4 m ρ c (Proc.devRef .tc main_arg24) := StableHlo.after_of_forall_not_mem (b := Proc.devRef .tc main_arg24) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg24) := rfl

/-- Argument 0 still holds its launch contents at boundary 8: no earlier segment writes it. -/
theorem arg0_at_W8 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 25 still holds its launch contents at boundary 8: no earlier segment writes it. -/
theorem arg25_at_W8 (c : Dev nD) : W8 m ρ c (Proc.devRef .tc main_arg25) = m ((c : Thread nD τ).loc main_arg25) :=
  calc W8 m ρ c (Proc.devRef .tc main_arg25)
    _ = W7 m ρ c (Proc.devRef .tc main_arg25) := W8_of_ne m ρ c main_arg25 (by decide)
    _ = W6 m ρ c (Proc.devRef .tc main_arg25) := StableHlo.after_of_forall_not_mem (b := Proc.devRef .tc main_arg25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg25) := W6_of_ne m ρ c main_arg25 (by decide)
    _ = W4 m ρ c (Proc.devRef .tc main_arg25) := StableHlo.after_of_forall_not_mem (b := Proc.devRef .tc main_arg25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg25) := rfl

/-- Argument 26 still holds its launch contents at boundary 8: no earlier segment writes it. -/
theorem arg26_at_W8 (c : Dev nD) : W8 m ρ c (Proc.devRef .tc main_arg26) = m ((c : Thread nD τ).loc main_arg26) :=
  calc W8 m ρ c (Proc.devRef .tc main_arg26)
    _ = W7 m ρ c (Proc.devRef .tc main_arg26) := W8_of_ne m ρ c main_arg26 (by decide)
    _ = W6 m ρ c (Proc.devRef .tc main_arg26) := StableHlo.after_of_forall_not_mem (b := Proc.devRef .tc main_arg26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg26) := W6_of_ne m ρ c main_arg26 (by decide)
    _ = W4 m ρ c (Proc.devRef .tc main_arg26) := StableHlo.after_of_forall_not_mem (b := Proc.devRef .tc main_arg26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg26) := W4_of_ne m ρ c main_arg26 (by decide)
    _ = W2 m ρ c (Proc.devRef .tc main_arg26) := StableHlo.after_of_forall_not_mem (b := Proc.devRef .tc main_arg26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg26) := W2_of_ne m ρ c main_arg26 (by decide)
    _ = W0 m ρ c (Proc.devRef .tc main_arg26) := StableHlo.after_of_forall_not_mem (b := Proc.devRef .tc main_arg26) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg26) := rfl

/-- Argument 27 still holds its launch contents at boundary 8: no earlier segment writes it. -/
theorem arg27_at_W8 (c : Dev nD) : W8 m ρ c (Proc.devRef .tc main_arg27) = m ((c : Thread nD τ).loc main_arg27) :=
  calc W8 m ρ c (Proc.devRef .tc main_arg27)
    _ = W7 m ρ c (Proc.devRef .tc main_arg27) := W8_of_ne m ρ c main_arg27 (by decide)
    _ = W6 m ρ c (Proc.devRef .tc main_arg27) := StableHlo.after_of_forall_not_mem (b := Proc.devRef .tc main_arg27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg27) := W6_of_ne m ρ c main_arg27 (by decide)
    _ = W4 m ρ c (Proc.devRef .tc main_arg27) := StableHlo.after_of_forall_not_mem (b := Proc.devRef .tc main_arg27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg27) := W2_of_ne m ρ c main_arg27 (by decide)
    _ = W0 m ρ c (Proc.devRef .tc main_arg27) := StableHlo.after_of_forall_not_mem (b := Proc.devRef .tc main_arg27) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg27) := rfl

/-- Argument 28 still holds its launch contents at boundary 8: no earlier segment writes it. -/
theorem arg28_at_W8 (c : Dev nD) : W8 m ρ c (Proc.devRef .tc main_arg28) = m ((c : Thread nD τ).loc main_arg28) :=
  calc W8 m ρ c (Proc.devRef .tc main_arg28)
    _ = W7 m ρ c (Proc.devRef .tc main_arg28) := W8_of_ne m ρ c main_arg28 (by decide)
    _ = W6 m ρ c (Proc.devRef .tc main_arg28) := StableHlo.after_of_forall_not_mem (b := Proc.devRef .tc main_arg28) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg28) := W6_of_ne m ρ c main_arg28 (by decide)
    _ = W4 m ρ c (Proc.devRef .tc main_arg28) := StableHlo.after_of_forall_not_mem (b := Proc.devRef .tc main_arg28) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg28) := W4_of_ne m ρ c main_arg28 (by decide)
    _ = W2 m ρ c (Proc.devRef .tc main_arg28) := StableHlo.after_of_forall_not_mem (b := Proc.devRef .tc main_arg28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg28) := W2_of_ne m ρ c main_arg28 (by decide)
    _ = W0 m ρ c (Proc.devRef .tc main_arg28) := StableHlo.after_of_forall_not_mem (b := Proc.devRef .tc main_arg28) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg28) := rfl

end Cert.KernelIdeal.HandKeep

end
-- ==== Proof.Ker3.lean ====
/-
  A graph-convolution stage on the kernel's side (the third convolution).

  The pipeline walks the 50000 node rows in 10 blocks of 5000. At a point `t` the body reads rows `5000 t …` of the joined
  array `[agg | h]` (256 columns), the whole stacked 256 × 128 weight, the offset row and the four parameter rows, and
  stores the positive part of the normalised `rows · weight + offset`. An entry `(r, j)` of the result depends on row `r`
  of the joined array only, and the 10 blocks tile the result: the array after the region is `Spec.sageCat` of the seven
  arrays the region finds.
-/
import proofs.«146433_j64295660421275_1_alg».proof.Proof.Gen.KernelIdeal.Frame
import proofs.«146433_j64295660421275_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand3

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-! ### The matrix product `dot_S5000x256_S256x128_S5000x128_1_0_0_1_n_n` at an index -/

theorem lS_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lS_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rS_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rS_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry `(p, q)` of the product into the zero accumulator is the sum over the 256 contracted positions of row `p`
    of the left operand against column `q` of the right. -/
theorem mmS_apply {φ₁ φ₂ : FTy} (l : FVec Ideal S5000x256 φ₁) (r : FVec Ideal S256x128 φ₂) (p : Fin 5000) (q : Fin 128) :
    matmul dot_S5000x256_S256x128_S5000x128_1_0_0_1_n_n none l r (constant S5000x128 .f32 0x00000000#32) (ix2 p q)
      = ∑ k : Fin 256, l (ix2 p k) * r (ix2 k q) := by
  show FloatOps.matmul dot_S5000x256_S256x128_S5000x128_1_0_0_1_n_n none l r (constant S5000x128 .f32 0x00000000#32) (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lS_0 _ _
    | ⟨1, _⟩ => exact (lS_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rS_0 _ _).trans hk
    | ⟨1, _⟩ => exact rS_1 _ _)
  rw [el, er]

/-- A one-row array spread over 5000 rows reads its one row. -/
theorem bcast_apply (x : S1x128.Idx → EReal) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

/-- The body's stored value at `(p, q)`: row `p` of the block against column `q` of the stacked weight, plus the offset,
    normalised by column `q` of the parameter rows, then the positive part. -/
theorem pay_apply (x0 : Vec Ideal S5000x256 .f32) (x1 : Vec Ideal S256x128 .f32) (x2 x3 x4 x5 x6 : Vec Ideal S1x128 .f32)
    (p : Fin 5000) (q : Fin 128) :
    k3_pay1 x0 x1 x2 x3 x4 x5 x6 (ix2 p q)
      = bnRelu ((∑ k : Fin 256, x0 (ix2 p k) * x1 (ix2 k q)) + x2 (ix2 0 q))
          (x3 (ix2 0 q)) (x4 (ix2 0 q)) (x5 (ix2 0 q)) (x6 (ix2 0 q)) := by
  unfold k3_pay1
  simp only [shapeCast_self, maximumf_apply, addf_apply, mulf_apply, subf_apply, bcast_apply]
  rw [mmS_apply]
  rfl

/-- What the body stores for a block of rows starting at row `5000 t`, against the whole arrays. -/
theorem blk_eq (A : Arr 50000 256) (W : Arr 256 128) (B G BE MU VV : Arr 1 128)
    (x0 : Vec Ideal S5000x256 .f32) (x1 : Vec Ideal S256x128 .f32) (x2 x3 x4 x5 x6 : Vec Ideal S1x128 .f32) (t : Nat)
    (h0 : ∀ (y : S5000x256.Idx) (i : S50000x256.Idx), (i 0).val = t * 5000 + (y 0).val → (i 1).val = (y 1).val → x0 y = A i)
    (h1 : ∀ y : S256x128.Idx, x1 y = W y)
    (h2 : ∀ y : S1x128.Idx, x2 y = B y) (h3 : ∀ y : S1x128.Idx, x3 y = G y) (h4 : ∀ y : S1x128.Idx, x4 y = BE y)
    (h5 : ∀ y : S1x128.Idx, x5 y = MU y) (h6 : ∀ y : S1x128.Idx, x6 y = VV y)
    (y : S5000x128.Idx) (i : S50000x128.Idx) (hi0 : (i 0).val = t * 5000 + (y 0).val) (hi1 : (i 1).val = (y 1).val) :
    k3_pay1 x0 x1 x2 x3 x4 x5 x6 y = sageCat A W B G BE MU VV i := by
  obtain ⟨p, q, rfl⟩ : ∃ (p : Fin 5000) (q : Fin 128), y = ix2 p q := ⟨y 0, y 1, eq_ix2 y⟩
  rw [pay_apply]
  unfold sageCat lin
  have hq : i 1 = q := Fin.ext hi1
  have hs : (∑ k : Fin 256, x0 (ix2 p k) * x1 (ix2 k q)) = ∑ k : Fin 256, A (ix2 (i 0) k) * W (ix2 k q) :=
    Finset.sum_congr rfl fun k _ => by rw [h0 (ix2 p k) (ix2 (i 0) k) hi0 rfl, h1]
  rw [hs, h2, h3, h4, h5, h6, hq]

/-- The relations between the printed index maps, decided once over the 10 grid points: the row windows sit at
    block `t`, the others at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Window 0's block at point `t` is rows `5000 t …` of the array the region finds. -/
theorem iblk_0 (c : Dev nD) (t : Fin cfg3.N) (y : S5000x256.Idx) (i : S50000x256.Idx)
    (h0 : (i 0).val = t.val * 5000 + (y 0).val) (h1 : (i 1).val = (y 1).val) :
    (iblk3 V c 0 t : Vec Ideal S5000x256 .f32) y = (V c main_v84 : S50000x256.Idx → EReal) i := by
  obtain ⟨e0_0, e0_1, -, -, -, -, -, -, -, -, -, -, -, -, -, -⟩ := idx_facts t
  unfold iblk3
  rw [View.read_apply]
  show V c main_v84 _ = V c main_v84 i
  congr 1
  funext a
  apply Fin.ext
  match a with
  | ⟨0, _⟩ => show win3_0.index t 0 * 5000 + 1 * (y 0).val = (i 0).val; rw [e0_0, h0]; omega
  | ⟨1, _⟩ => show win3_0.index t 1 * 256 + 1 * (y 1).val = (i 1).val; rw [e0_1, h1]; omega

/-- Window 1's block at every point is its whole array. -/
theorem iblk_1 (c : Dev nD) (t : Fin cfg3.N) (y : S256x128.Idx) :
    (iblk3 V c 1 t : Vec Ideal S256x128 .f32) y = (V c main_v86 : S256x128.Idx → EReal) y := by
  obtain ⟨-, -, e1_0, e1_1, -, -, -, -, -, -, -, -, -, -, -, -⟩ := idx_facts t
  unfold iblk3
  rw [View.read_apply]
  show V c main_v86 _ = V c main_v86 y
  congr 1
  funext a
  apply Fin.ext
  match a with
  | ⟨0, _⟩ => show win3_1.index t 0 * 256 + 1 * (y 0).val = (y 0).val; rw [e1_0]; omega
  | ⟨1, _⟩ => show win3_1.index t 1 * 128 + 1 * (y 1).val = (y 1).val; rw [e1_1]; omega

/-- Window 2's block at every point is its whole array. -/
theorem iblk_2 (c : Dev nD) (t : Fin cfg3.N) (y : S1x128.Idx) :
    (iblk3 V c 2 t : Vec Ideal S1x128 .f32) y = (V c main_v87 : S1x128.Idx → EReal) y := by
  obtain ⟨-, -, -, -, e2_0, e2_1, -, -, -, -, -, -, -, -, -, -⟩ := idx_facts t
  unfold iblk3
  rw [View.read_apply]
  show V c main_v87 _ = V c main_v87 y
  congr 1
  funext a
  apply Fin.ext
  match a with
  | ⟨0, _⟩ => show win3_2.index t 0 * 1 + 1 * (y 0).val = (y 0).val; rw [e2_0]; omega
  | ⟨1, _⟩ => show win3_2.index t 1 * 128 + 1 * (y 1).val = (y 1).val; rw [e2_1]; omega

/-- Window 3's block at every point is its whole array. -/
theorem iblk_3 (c : Dev nD) (t : Fin cfg3.N) (y : S1x128.Idx) :
    (iblk3 V c 3 t : Vec Ideal S1x128 .f32) y = (V c main_v88 : S1x128.Idx → EReal) y := by
  obtain ⟨-, -, -, -, -, -, e3_0, e3_1, -, -, -, -, -, -, -, -⟩ := idx_facts t
  unfold iblk3
  rw [View.read_apply]
  show V c main_v88 _ = V c main_v88 y
  congr 1
  funext a
  apply Fin.ext
  match a with
  | ⟨0, _⟩ => show win3_3.index t 0 * 1 + 1 * (y 0).val = (y 0).val; rw [e3_0]; omega
  | ⟨1, _⟩ => show win3_3.index t 1 * 128 + 1 * (y 1).val = (y 1).val; rw [e3_1]; omega

/-- Window 4's block at every point is its whole array. -/
theorem iblk_4 (c : Dev nD) (t : Fin cfg3.N) (y : S1x128.Idx) :
    (iblk3 V c 4 t : Vec Ideal S1x128 .f32) y = (V c main_v89 : S1x128.Idx → EReal) y := by
  obtain ⟨-, -, -, -, -, -, -, -, e4_0, e4_1, -, -, -, -, -, -⟩ := idx_facts t
  unfold iblk3
  rw [View.read_apply]
  show V c main_v89 _ = V c main_v89 y
  congr 1
  funext a
  apply Fin.ext
  match a with
  | ⟨0, _⟩ => show win3_4.index t 0 * 1 + 1 * (y 0).val = (y 0).val; rw [e4_0]; omega
  | ⟨1, _⟩ => show win3_4.index t 1 * 128 + 1 * (y 1).val = (y 1).val; rw [e4_1]; omega

/-- Window 5's block at every point is its whole array. -/
theorem iblk_5 (c : Dev nD) (t : Fin cfg3.N) (y : S1x128.Idx) :
    (iblk3 V c 5 t : Vec Ideal S1x128 .f32) y = (V c main_v90 : S1x128.Idx → EReal) y := by
  obtain ⟨-, -, -, -, -, -, -, -, -, -, e5_0, e5_1, -, -, -, -⟩ := idx_facts t
  unfold iblk3
  rw [View.read_apply]
  show V c main_v90 _ = V c main_v90 y
  congr 1
  funext a
  apply Fin.ext
  match a with
  | ⟨0, _⟩ => show win3_5.index t 0 * 1 + 1 * (y 0).val = (y 0).val; rw [e5_0]; omega
  | ⟨1, _⟩ => show win3_5.index t 1 * 128 + 1 * (y 1).val = (y 1).val; rw [e5_1]; omega

/-- Window 6's block at every point is its whole array. -/
theorem iblk_6 (c : Dev nD) (t : Fin cfg3.N) (y : S1x128.Idx) :
    (iblk3 V c 6 t : Vec Ideal S1x128 .f32) y = (V c main_v91 : S1x128.Idx → EReal) y := by
  obtain ⟨-, -, -, -, -, -, -, -, -, -, -, -, e6_0, e6_1, -, -⟩ := idx_facts t
  unfold iblk3
  rw [View.read_apply]
  show V c main_v91 _ = V c main_v91 y
  congr 1
  funext a
  apply Fin.ext
  match a with
  | ⟨0, _⟩ => show win3_6.index t 0 * 1 + 1 * (y 0).val = (y 0).val; rw [e6_0]; omega
  | ⟨1, _⟩ => show win3_6.index t 1 * 128 + 1 * (y 1).val = (y 1).val; rw [e6_1]; omega

/-- What point `t` writes back is block `t` of `Spec.sageCat` of the arrays the region finds. -/
theorem flushed_eq (c : Dev nD) (t : Fin cfg3.N) :
    (dat3 V c).flushed 7 t = ((cfg3.win 7).blk t).view.read (Elt Ideal)
      (sageCat (V c main_v84) (V c main_v86) (V c main_v87) (V c main_v88) (V c main_v89) (V c main_v90) (V c main_v91) : S50000x128.Idx → EReal) := by
  show (cfg3.win 7).cut (grid3.coords t) ((dat3 V c).after 7 t) = _
  rw [after3_7]
  unfold out3_7
  rw [View.canon_unit_zero hz]
  simp only [View.ld_unit_zero (S := S5000x256) hz, View.ld_unit_zero (S := S256x128) hz, View.ld_unit_zero (S := S1x128) hz]
  obtain ⟨-, -, -, -, -, -, -, -, -, -, -, -, -, -, e7_0, e7_1⟩ := idx_facts t
  funext j
  rw [View.read_apply]
  refine blk_eq (V c main_v84) (V c main_v86) (V c main_v87) (V c main_v88) (V c main_v89) (V c main_v90) (V c main_v91) (iblk3 V c 0 t) (iblk3 V c 1 t) (iblk3 V c 2 t) (iblk3 V c 3 t) (iblk3 V c 4 t) (iblk3 V c 5 t) (iblk3 V c 6 t) t.val
    (fun y i h0 h1 => iblk_0 V c t y i h0 h1) (fun y => iblk_1 V c t y) (fun y => iblk_2 V c t y) (fun y => iblk_3 V c t y) (fun y => iblk_4 V c t y) (fun y => iblk_5 V c t y) (fun y => iblk_6 V c t y) j _ ?_ ?_
  · show win3_7.index t 0 * 5000 + 1 * (j 0).val = t.val * 5000 + (j 0).val; rw [e7_0]; omega
  · show win3_7.index t 1 * 128 + 1 * (j 1).val = (j 1).val; rw [e7_1]; omega

/-- An index of the result is in point `t`'s block iff each coordinate is in the block's range on its axis. -/
theorem mem_blk (t : Fin cfg3.N) (i : S50000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v92).slice (win3_7.rect t)).set ↔ _
  rw [View.set_slice_whole, Rect.mem_set_unit]
  exact Iff.rfl

/-- The 10 blocks of 5000 rows tile the result: row `r` is in block `r / 5000`. So the result array after the region
    is `Spec.sageCat` of the arrays the region finds. -/
theorem final (c : Dev nD) :
    (dat3 V c).arrAt 7 cfg3.N = (sageCat (V c main_v84) (V c main_v86) (V c main_v87) (V c main_v88) (V c main_v89) (V c main_v90) (V c main_v91) : S50000x128.Idx → EReal) :=
  (dat3 V c).arrAt_eq_of_cover 7 _ (fun t _ => flushed_eq V c t) fun i => by
    have hi0 : (i 0).val < 50000 := (i 0).isLt
    have hi1 : (i 1).val < 128 := (i 1).isLt
    have hN : cfg3.N = 10 := N_3
    have ht : (i 0).val / 5000 < cfg3.N := by rw [hN]; omega
    obtain ⟨-, -, -, -, -, -, -, -, -, -, -, -, -, -, e7_0, e7_1⟩ := idx_facts ⟨(i 0).val / 5000, ht⟩
    refine ⟨⟨(i 0).val / 5000, ht⟩, flush3_7 _, ?_⟩
    rw [mem_blk]
    intro a
    match a with
    | ⟨0, _⟩ =>
      show win3_7.index ⟨(i 0).val / 5000, ht⟩ 0 * 5000 ≤ (i 0).val ∧ (i 0).val < win3_7.index ⟨(i 0).val / 5000, ht⟩ 0 * 5000 + 5000
      rw [e7_0]; show (i 0).val / 5000 * 5000 ≤ (i 0).val ∧ (i 0).val < (i 0).val / 5000 * 5000 + 5000; omega
    | ⟨1, _⟩ =>
      show win3_7.index ⟨(i 0).val / 5000, ht⟩ 1 * 128 ≤ (i 1).val ∧ (i 1).val < win3_7.index ⟨(i 0).val / 5000, ht⟩ 1 * 128 + 128
      rw [e7_1]; omega

end Cert.KernelIdeal.Hand3

end
-- ==== Proof.Ref3.lean ====
/-
  A graph-convolution stage on the reference's side (the third convolution): the neighbours' mean against the
  transposed neighbour weight, plus the offset, plus the node's own features against the transposed self weight; then
  the normalisation with the stored statistics and the positive part — `Spec.sageTwo`, read index by index.
-/
import proofs.«146433_j64295660421275_1_alg».proof.Proof.Gen.ReferenceIdeal.Read
import proofs.«146433_j64295660421275_1_alg».proof.Proof.Spec

set_option maxRecDepth 16384

noncomputable section

open Idealize.ShloMosaic Idealize.ShloMosaic.ValueIdx

namespace Cert.ReferenceIdeal.Hand3

open Cert.ReferenceIdeal Cert.ReferenceIdeal.Read Cert.Spec

/-- Parameter vector 21, spread over one row and then over all rows, read at `(p, q)` is its entry `q`. -/
theorem at_v125 (x21 : (⟨S128, .f32⟩ : BufTy).Contents (Elt Ideal)) (p : Fin 50000) (q : Fin 128) :
    val_main_v125 (F := Ideal) x21 (ix2 p q) = x21 (ix1 q) := by
  rw [val_main_v125_apply, val_main_v124_apply]
  exact congrArg x21 (funext fun a => Fin.ext (by
    match a with
    | ⟨0, _⟩ => rfl))

/-- Parameter vector 19, spread over one row and then over all rows, read at `(p, q)` is its entry `q`. -/
theorem at_v116 (x19 : (⟨S128, .f32⟩ : BufTy).Contents (Elt Ideal)) (p : Fin 50000) (q : Fin 128) :
    val_main_v116 (F := Ideal) x19 (ix2 p q) = x19 (ix1 q) := by
  rw [val_main_v116_apply, val_main_v115_apply]
  exact congrArg x19 (funext fun a => Fin.ext (by
    match a with
    | ⟨0, _⟩ => rfl))

/-- Parameter vector 23, spread over one row and then over all rows, read at `(p, q)` is its entry `q`. -/
theorem at_v122 (x23 : (⟨S128, .f32⟩ : BufTy).Contents (Elt Ideal)) (p : Fin 50000) (q : Fin 128) :
    val_main_v122 (F := Ideal) x23 (ix2 p q) = x23 (ix1 q) := by
  rw [val_main_v122_apply, val_main_v121_apply]
  exact congrArg x23 (funext fun a => Fin.ext (by
    match a with
    | ⟨0, _⟩ => rfl))

/-- The variance offset, spread over a vector, is `Spec.eps` at every entry. -/
theorem at_v127 (j : S128.Idx) : val_main_v127 (F := Ideal) j = eps := by
  rw [val_main_v127_apply, val_main_cst_18_apply]
  rfl

/-- The reciprocal root of variance plus offset, spread over all rows, read at `(p, q)`. -/
theorem at_v131 (x24 : (⟨S128, .f32⟩ : BufTy).Contents (Elt Ideal)) (p : Fin 50000) (q : Fin 128) :
    val_main_v131 (F := Ideal) x24 (ix2 p q) = Ideal.rsqrt (x24 (ix1 q) + eps) := by
  rw [val_main_v131_apply, val_main_v130_apply, val_main_v129_apply, val_main_v128_apply, at_v127]
  have e : idx_main_v130 (idx_main_v131 (ix2 p q)) = ix1 q := funext fun a => Fin.ext (by
    match a with
    | ⟨0, _⟩ => rfl)
  rw [e]
  rfl

/-- Parameter vector 22, spread over one row and then over all rows, read at `(p, q)` is its entry `q`. -/
theorem at_v134 (x22 : (⟨S128, .f32⟩ : BufTy).Contents (Elt Ideal)) (p : Fin 50000) (q : Fin 128) :
    val_main_v134 (F := Ideal) x22 (ix2 p q) = x22 (ix1 q) := by
  rw [val_main_v134_apply, val_main_v133_apply]
  exact congrArg x22 (funext fun a => Fin.ext (by
    match a with
    | ⟨0, _⟩ => rfl))

/-- The zero splat of a positive part is `Spec.zero` at every entry. -/
theorem at_call3_v0 (i : S50000x128.Idx) : val_main_call3_v0 (F := Ideal) i = zero := by
  rw [val_main_call3_v0_apply, val_main_call3_cst_apply]
  rfl

/-- A product of the reference at `(p, q)`: row `p` of the left operand against column `q` of the right. -/
theorem at_v114 (x0 : (⟨S50000x64, .f32⟩ : BufTy).Contents (Elt Ideal)) (x1 x2 x3 : (⟨S2x800000, .i32⟩ : BufTy).Contents (Elt Ideal)) (x4 : (⟨S800000x32, .f32⟩ : BufTy).Contents (Elt Ideal)) (x5 : (⟨S128x96, .f32⟩ : BufTy).Contents (Elt Ideal)) (x6 x7 x8 x9 x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 x15 x16 x17 : (⟨S128, .f32⟩ : BufTy).Contents (Elt Ideal)) (x18 : (⟨S128x128, .f32⟩ : BufTy).Contents (Elt Ideal)) (p : Fin 50000) (q : Fin 128) :
    val_main_v114 (F := Ideal) x0 x1 x2 x3 x4 x5 x6 x7 x8 x9 x10 x11 x12 x13 x14 x15 x16 x17 x18 (ix2 p q) = ∑ k : Fin 128, (val_main_v112 (F := Ideal) x0 x1 x2 x3 x4 x5 x6 x7 x8 x9 x10 x11 x12 x13 x14 x15 x16 x17) (ix2 p k) * (val_main_v113 (F := Ideal) x18) (ix2 k q) := by
  rw [val_main_v114_apply]
  refine Finset.sum_congr rfl fun k _ => ?_
  have el : lidx_main_v114 (ix2 p q) k = ix2 p k := funext fun a => Fin.ext (by
    match a with
    | ⟨0, _⟩ => rfl
    | ⟨1, _⟩ => rfl)
  have er : ridx_main_v114 (ix2 p q) k = ix2 k q := funext fun a => Fin.ext (by
    match a with
    | ⟨0, _⟩ => rfl
    | ⟨1, _⟩ => rfl)
  rw [el, er]

/-- A product of the reference at `(p, q)`: row `p` of the left operand against column `q` of the right. -/
theorem at_v119 (x0 : (⟨S50000x64, .f32⟩ : BufTy).Contents (Elt Ideal)) (x1 x2 : (⟨S2x800000, .i32⟩ : BufTy).Contents (Elt Ideal)) (x4 : (⟨S800000x32, .f32⟩ : BufTy).Contents (Elt Ideal)) (x5 : (⟨S128x96, .f32⟩ : BufTy).Contents (Elt Ideal)) (x6 x7 x8 x9 x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 x15 x16 x17 : (⟨S128, .f32⟩ : BufTy).Contents (Elt Ideal)) (x20 : (⟨S128x128, .f32⟩ : BufTy).Contents (Elt Ideal)) (p : Fin 50000) (q : Fin 128) :
    val_main_v119 (F := Ideal) x0 x1 x2 x4 x5 x6 x7 x8 x9 x10 x11 x12 x13 x14 x15 x16 x17 x20 (ix2 p q) = ∑ k : Fin 128, (val_main_v90 (F := Ideal) x0 x1 x2 x4 x5 x6 x7 x8 x9 x10 x11 x12 x13 x14 x15 x16 x17) (ix2 p k) * (val_main_v118 (F := Ideal) x20) (ix2 k q) := by
  rw [val_main_v119_apply]
  refine Finset.sum_congr rfl fun k _ => ?_
  have el : lidx_main_v119 (ix2 p q) k = ix2 p k := funext fun a => Fin.ext (by
    match a with
    | ⟨0, _⟩ => rfl
    | ⟨1, _⟩ => rfl)
  have er : ridx_main_v119 (ix2 p q) k = ix2 k q := funext fun a => Fin.ext (by
    match a with
    | ⟨0, _⟩ => rfl
    | ⟨1, _⟩ => rfl)
  rw [el, er]

theorem sage_eq (x0 : (⟨S50000x64, .f32⟩ : BufTy).Contents (Elt Ideal)) (x1 x2 x3 : (⟨S2x800000, .i32⟩ : BufTy).Contents (Elt Ideal)) (x4 : (⟨S800000x32, .f32⟩ : BufTy).Contents (Elt Ideal)) (x5 : (⟨S128x96, .f32⟩ : BufTy).Contents (Elt Ideal)) (x6 x7 x8 x9 x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 x15 x16 x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 x22 x23 x24 : (⟨S128, .f32⟩ : BufTy).Contents (Elt Ideal)) :
    val_main_v136 (F := Ideal) x0 x1 x2 x3 x4 x5 x6 x7 x8 x9 x10 x11 x12 x13 x14 x15 x16 x17 x18 x19 x20 x21 x22 x23 x24
      = sageTwo (val_main_v112 (F := Ideal) x0 x1 x2 x3 x4 x5 x6 x7 x8 x9 x10 x11 x12 x13 x14 x15 x16 x17) (val_main_v90 (F := Ideal) x0 x1 x2 x4 x5 x6 x7 x8 x9 x10 x11 x12 x13 x14 x15 x16 x17) (val_main_v113 (F := Ideal) x18) (val_main_v118 (F := Ideal) x20)
          (row x19) (row x21) (row x22) (row x23) (row x24) := by
  funext i
  obtain ⟨p, q, rfl⟩ : ∃ (p : Fin 50000) (q : Fin 128), i = ix2 p q := ⟨i 0, i 1, eq_ix2 i⟩
  rw [val_main_v136_apply, val_main_v135_apply, val_main_v132_apply, val_main_v126_apply, val_main_v123_apply, val_main_v120_apply, val_main_v117_apply]
  rw [at_v125, at_v116, at_v122, at_v131, at_v134, at_call3_v0, at_v114, at_v119]
  rfl

end Cert.ReferenceIdeal.Hand3

end
-- ==== Proof.Ker2.lean ====
/-
  A graph-convolution stage on the kernel's side (the second convolution).

  The pipeline walks the 50000 node rows in 10 blocks of 5000. At a point `t` the body reads rows `5000 t …` of the joined
  array `[agg | h]` (256 columns), the whole stacked 256 × 128 weight, the offset row and the four parameter rows, and
  stores the positive part of the normalised `rows · weight + offset`. An entry `(r, j)` of the result depends on row `r`
  of the joined array only, and the 10 blocks tile the result: the array after the region is `Spec.sageCat` of the seven
  arrays the region finds.
-/
import proofs.«146433_j64295660421275_1_alg».proof.Proof.Gen.KernelIdeal.Frame
import proofs.«146433_j64295660421275_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand2

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-! ### The matrix product `dot_S5000x256_S256x128_S5000x128_1_0_0_1_n_n` at an index -/

theorem lS_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lS_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rS_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rS_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry `(p, q)` of the product into the zero accumulator is the sum over the 256 contracted positions of row `p`
    of the left operand against column `q` of the right. -/
theorem mmS_apply {φ₁ φ₂ : FTy} (l : FVec Ideal S5000x256 φ₁) (r : FVec Ideal S256x128 φ₂) (p : Fin 5000) (q : Fin 128) :
    matmul dot_S5000x256_S256x128_S5000x128_1_0_0_1_n_n none l r (constant S5000x128 .f32 0x00000000#32) (ix2 p q)
      = ∑ k : Fin 256, l (ix2 p k) * r (ix2 k q) := by
  show FloatOps.matmul dot_S5000x256_S256x128_S5000x128_1_0_0_1_n_n none l r (constant S5000x128 .f32 0x00000000#32) (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lS_0 _ _
    | ⟨1, _⟩ => exact (lS_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rS_0 _ _).trans hk
    | ⟨1, _⟩ => exact rS_1 _ _)
  rw [el, er]

/-- A one-row array spread over 5000 rows reads its one row. -/
theorem bcast_apply (x : S1x128.Idx → EReal) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

/-- The body's stored value at `(p, q)`: row `p` of the block against column `q` of the stacked weight, plus the offset,
    normalised by column `q` of the parameter rows, then the positive part. -/
theorem pay_apply (x0 : Vec Ideal S5000x256 .f32) (x1 : Vec Ideal S256x128 .f32) (x2 x3 x4 x5 x6 : Vec Ideal S1x128 .f32)
    (p : Fin 5000) (q : Fin 128) :
    k2_pay1 x0 x1 x2 x3 x4 x5 x6 (ix2 p q)
      = bnRelu ((∑ k : Fin 256, x0 (ix2 p k) * x1 (ix2 k q)) + x2 (ix2 0 q))
          (x3 (ix2 0 q)) (x4 (ix2 0 q)) (x5 (ix2 0 q)) (x6 (ix2 0 q)) := by
  unfold k2_pay1
  simp only [shapeCast_self, maximumf_apply, addf_apply, mulf_apply, subf_apply, bcast_apply]
  rw [mmS_apply]
  rfl

/-- What the body stores for a block of rows starting at row `5000 t`, against the whole arrays. -/
theorem blk_eq (A : Arr 50000 256) (W : Arr 256 128) (B G BE MU VV : Arr 1 128)
    (x0 : Vec Ideal S5000x256 .f32) (x1 : Vec Ideal S256x128 .f32) (x2 x3 x4 x5 x6 : Vec Ideal S1x128 .f32) (t : Nat)
    (h0 : ∀ (y : S5000x256.Idx) (i : S50000x256.Idx), (i 0).val = t * 5000 + (y 0).val → (i 1).val = (y 1).val → x0 y = A i)
    (h1 : ∀ y : S256x128.Idx, x1 y = W y)
    (h2 : ∀ y : S1x128.Idx, x2 y = B y) (h3 : ∀ y : S1x128.Idx, x3 y = G y) (h4 : ∀ y : S1x128.Idx, x4 y = BE y)
    (h5 : ∀ y : S1x128.Idx, x5 y = MU y) (h6 : ∀ y : S1x128.Idx, x6 y = VV y)
    (y : S5000x128.Idx) (i : S50000x128.Idx) (hi0 : (i 0).val = t * 5000 + (y 0).val) (hi1 : (i 1).val = (y 1).val) :
    k2_pay1 x0 x1 x2 x3 x4 x5 x6 y = sageCat A W B G BE MU VV i := by
  obtain ⟨p, q, rfl⟩ : ∃ (p : Fin 5000) (q : Fin 128), y = ix2 p q := ⟨y 0, y 1, eq_ix2 y⟩
  rw [pay_apply]
  unfold sageCat lin
  have hq : i 1 = q := Fin.ext hi1
  have hs : (∑ k : Fin 256, x0 (ix2 p k) * x1 (ix2 k q)) = ∑ k : Fin 256, A (ix2 (i 0) k) * W (ix2 k q) :=
    Finset.sum_congr rfl fun k _ => by rw [h0 (ix2 p k) (ix2 (i 0) k) hi0 rfl, h1]
  rw [hs, h2, h3, h4, h5, h6, hq]

/-- The relations between the printed index maps, decided once over the 10 grid points: the row windows sit at
    block `t`, the others at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Window 0's block at point `t` is rows `5000 t …` of the array the region finds. -/
theorem iblk_0 (c : Dev nD) (t : Fin cfg2.N) (y : S5000x256.Idx) (i : S50000x256.Idx)
    (h0 : (i 0).val = t.val * 5000 + (y 0).val) (h1 : (i 1).val = (y 1).val) :
    (iblk2 V c 0 t : Vec Ideal S5000x256 .f32) y = (V c main_v53 : S50000x256.Idx → EReal) i := by
  obtain ⟨e0_0, e0_1, -, -, -, -, -, -, -, -, -, -, -, -, -, -⟩ := idx_facts t
  unfold iblk2
  rw [View.read_apply]
  show V c main_v53 _ = V c main_v53 i
  congr 1
  funext a
  apply Fin.ext
  match a with
  | ⟨0, _⟩ => show win2_0.index t 0 * 5000 + 1 * (y 0).val = (i 0).val; rw [e0_0, h0]; omega
  | ⟨1, _⟩ => show win2_0.index t 1 * 256 + 1 * (y 1).val = (i 1).val; rw [e0_1, h1]; omega

/-- Window 1's block at every point is its whole array. -/
theorem iblk_1 (c : Dev nD) (t : Fin cfg2.N) (y : S256x128.Idx) :
    (iblk2 V c 1 t : Vec Ideal S256x128 .f32) y = (V c main_v55 : S256x128.Idx → EReal) y := by
  obtain ⟨-, -, e1_0, e1_1, -, -, -, -, -, -, -, -, -, -, -, -⟩ := idx_facts t
  unfold iblk2
  rw [View.read_apply]
  show V c main_v55 _ = V c main_v55 y
  congr 1
  funext a
  apply Fin.ext
  match a with
  | ⟨0, _⟩ => show win2_1.index t 0 * 256 + 1 * (y 0).val = (y 0).val; rw [e1_0]; omega
  | ⟨1, _⟩ => show win2_1.index t 1 * 128 + 1 * (y 1).val = (y 1).val; rw [e1_1]; omega

/-- Window 2's block at every point is its whole array. -/
theorem iblk_2 (c : Dev nD) (t : Fin cfg2.N) (y : S1x128.Idx) :
    (iblk2 V c 2 t : Vec Ideal S1x128 .f32) y = (V c main_v56 : S1x128.Idx → EReal) y := by
  obtain ⟨-, -, -, -, e2_0, e2_1, -, -, -, -, -, -, -, -, -, -⟩ := idx_facts t
  unfold iblk2
  rw [View.read_apply]
  show V c main_v56 _ = V c main_v56 y
  congr 1
  funext a
  apply Fin.ext
  match a with
  | ⟨0, _⟩ => show win2_2.index t 0 * 1 + 1 * (y 0).val = (y 0).val; rw [e2_0]; omega
  | ⟨1, _⟩ => show win2_2.index t 1 * 128 + 1 * (y 1).val = (y 1).val; rw [e2_1]; omega

/-- Window 3's block at every point is its whole array. -/
theorem iblk_3 (c : Dev nD) (t : Fin cfg2.N) (y : S1x128.Idx) :
    (iblk2 V c 3 t : Vec Ideal S1x128 .f32) y = (V c main_v57 : S1x128.Idx → EReal) y := by
  obtain ⟨-, -, -, -, -, -, e3_0, e3_1, -, -, -, -, -, -, -, -⟩ := idx_facts t
  unfold iblk2
  rw [View.read_apply]
  show V c main_v57 _ = V c main_v57 y
  congr 1
  funext a
  apply Fin.ext
  match a with
  | ⟨0, _⟩ => show win2_3.index t 0 * 1 + 1 * (y 0).val = (y 0).val; rw [e3_0]; omega
  | ⟨1, _⟩ => show win2_3.index t 1 * 128 + 1 * (y 1).val = (y 1).val; rw [e3_1]; omega

/-- Window 4's block at every point is its whole array. -/
theorem iblk_4 (c : Dev nD) (t : Fin cfg2.N) (y : S1x128.Idx) :
    (iblk2 V c 4 t : Vec Ideal S1x128 .f32) y = (V c main_v58 : S1x128.Idx → EReal) y := by
  obtain ⟨-, -, -, -, -, -, -, -, e4_0, e4_1, -, -, -, -, -, -⟩ := idx_facts t
  unfold iblk2
  rw [View.read_apply]
  show V c main_v58 _ = V c main_v58 y
  congr 1
  funext a
  apply Fin.ext
  match a with
  | ⟨0, _⟩ => show win2_4.index t 0 * 1 + 1 * (y 0).val = (y 0).val; rw [e4_0]; omega
  | ⟨1, _⟩ => show win2_4.index t 1 * 128 + 1 * (y 1).val = (y 1).val; rw [e4_1]; omega

/-- Window 5's block at every point is its whole array. -/
theorem iblk_5 (c : Dev nD) (t : Fin cfg2.N) (y : S1x128.Idx) :
    (iblk2 V c 5 t : Vec Ideal S1x128 .f32) y = (V c main_v59 : S1x128.Idx → EReal) y := by
  obtain ⟨-, -, -, -, -, -, -, -, -, -, e5_0, e5_1, -, -, -, -⟩ := idx_facts t
  unfold iblk2
  rw [View.read_apply]
  show V c main_v59 _ = V c main_v59 y
  congr 1
  funext a
  apply Fin.ext
  match a with
  | ⟨0, _⟩ => show win2_5.index t 0 * 1 + 1 * (y 0).val = (y 0).val; rw [e5_0]; omega
  | ⟨1, _⟩ => show win2_5.index t 1 * 128 + 1 * (y 1).val = (y 1).val; rw [e5_1]; omega

/-- Window 6's block at every point is its whole array. -/
theorem iblk_6 (c : Dev nD) (t : Fin cfg2.N) (y : S1x128.Idx) :
    (iblk2 V c 6 t : Vec Ideal S1x128 .f32) y = (V c main_v60 : S1x128.Idx → EReal) y := by
  obtain ⟨-, -, -, -, -, -, -, -, -, -, -, -, e6_0, e6_1, -, -⟩ := idx_facts t
  unfold iblk2
  rw [View.read_apply]
  show V c main_v60 _ = V c main_v60 y
  congr 1
  funext a
  apply Fin.ext
  match a with
  | ⟨0, _⟩ => show win2_6.index t 0 * 1 + 1 * (y 0).val = (y 0).val; rw [e6_0]; omega
  | ⟨1, _⟩ => show win2_6.index t 1 * 128 + 1 * (y 1).val = (y 1).val; rw [e6_1]; omega

/-- What point `t` writes back is block `t` of `Spec.sageCat` of the arrays the region finds. -/
theorem flushed_eq (c : Dev nD) (t : Fin cfg2.N) :
    (dat2 V c).flushed 7 t = ((cfg2.win 7).blk t).view.read (Elt Ideal)
      (sageCat (V c main_v53) (V c main_v55) (V c main_v56) (V c main_v57) (V c main_v58) (V c main_v59) (V c main_v60) : S50000x128.Idx → EReal) := by
  show (cfg2.win 7).cut (grid2.coords t) ((dat2 V c).after 7 t) = _
  rw [after2_7]
  unfold out2_7
  rw [View.canon_unit_zero hz]
  simp only [View.ld_unit_zero (S := S5000x256) hz, View.ld_unit_zero (S := S256x128) hz, View.ld_unit_zero (S := S1x128) hz]
  obtain ⟨-, -, -, -, -, -, -, -, -, -, -, -, -, -, e7_0, e7_1⟩ := idx_facts t
  funext j
  rw [View.read_apply]
  refine blk_eq (V c main_v53) (V c main_v55) (V c main_v56) (V c main_v57) (V c main_v58) (V c main_v59) (V c main_v60) (iblk2 V c 0 t) (iblk2 V c 1 t) (iblk2 V c 2 t) (iblk2 V c 3 t) (iblk2 V c 4 t) (iblk2 V c 5 t) (iblk2 V c 6 t) t.val
    (fun y i h0 h1 => iblk_0 V c t y i h0 h1) (fun y => iblk_1 V c t y) (fun y => iblk_2 V c t y) (fun y => iblk_3 V c t y) (fun y => iblk_4 V c t y) (fun y => iblk_5 V c t y) (fun y => iblk_6 V c t y) j _ ?_ ?_
  · show win2_7.index t 0 * 5000 + 1 * (j 0).val = t.val * 5000 + (j 0).val; rw [e7_0]; omega
  · show win2_7.index t 1 * 128 + 1 * (j 1).val = (j 1).val; rw [e7_1]; omega

/-- An index of the result is in point `t`'s block iff each coordinate is in the block's range on its axis. -/
theorem mem_blk (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v61).slice (win2_7.rect t)).set ↔ _
  rw [View.set_slice_whole, Rect.mem_set_unit]
  exact Iff.rfl

/-- The 10 blocks of 5000 rows tile the result: row `r` is in block `r / 5000`. So the result array after the region
    is `Spec.sageCat` of the arrays the region finds. -/
theorem final (c : Dev nD) :
    (dat2 V c).arrAt 7 cfg2.N = (sageCat (V c main_v53) (V c main_v55) (V c main_v56) (V c main_v57) (V c main_v58) (V c main_v59) (V c main_v60) : S50000x128.Idx → EReal) :=
  (dat2 V c).arrAt_eq_of_cover 7 _ (fun t _ => flushed_eq V c t) fun i => by
    have hi0 : (i 0).val < 50000 := (i 0).isLt
    have hi1 : (i 1).val < 128 := (i 1).isLt
    have hN : cfg2.N = 10 := N_2
    have ht : (i 0).val / 5000 < cfg2.N := by rw [hN]; omega
    obtain ⟨-, -, -, -, -, -, -, -, -, -, -, -, -, -, e7_0, e7_1⟩ := idx_facts ⟨(i 0).val / 5000, ht⟩
    refine ⟨⟨(i 0).val / 5000, ht⟩, flush2_7 _, ?_⟩
    rw [mem_blk]
    intro a
    match a with
    | ⟨0, _⟩ =>
      show win2_7.index ⟨(i 0).val / 5000, ht⟩ 0 * 5000 ≤ (i 0).val ∧ (i 0).val < win2_7.index ⟨(i 0).val / 5000, ht⟩ 0 * 5000 + 5000
      rw [e7_0]; show (i 0).val / 5000 * 5000 ≤ (i 0).val ∧ (i 0).val < (i 0).val / 5000 * 5000 + 5000; omega
    | ⟨1, _⟩ =>
      show win2_7.index ⟨(i 0).val / 5000, ht⟩ 1 * 128 ≤ (i 1).val ∧ (i 1).val < win2_7.index ⟨(i 0).val / 5000, ht⟩ 1 * 128 + 128
      rw [e7_1]; omega

end Cert.KernelIdeal.Hand2

end
-- ==== Proof.Ref2.lean ====
/-
  A graph-convolution stage on the reference's side (the second convolution): the neighbours' mean against the
  transposed neighbour weight, plus the offset, plus the node's own features against the transposed self weight; then
  the normalisation with the stored statistics and the positive part — `Spec.sageTwo`, read index by index.
-/
import proofs.«146433_j64295660421275_1_alg».proof.Proof.Gen.ReferenceIdeal.Read
import proofs.«146433_j64295660421275_1_alg».proof.Proof.Spec

set_option maxRecDepth 16384

noncomputable section

open Idealize.ShloMosaic Idealize.ShloMosaic.ValueIdx

namespace Cert.ReferenceIdeal.Hand2

open Cert.ReferenceIdeal Cert.ReferenceIdeal.Read Cert.Spec

/-- Parameter vector 14, spread over one row and then over all rows, read at `(p, q)` is its entry `q`. -/
theorem at_v79 (x14 : (⟨S128, .f32⟩ : BufTy).Contents (Elt Ideal)) (p : Fin 50000) (q : Fin 128) :
    val_main_v79 (F := Ideal) x14 (ix2 p q) = x14 (ix1 q) := by
  rw [val_main_v79_apply, val_main_v78_apply]
  exact congrArg x14 (funext fun a => Fin.ext (by
    match a with
    | ⟨0, _⟩ => rfl))

/-- Parameter vector 12, spread over one row and then over all rows, read at `(p, q)` is its entry `q`. -/
theorem at_v70 (x12 : (⟨S128, .f32⟩ : BufTy).Contents (Elt Ideal)) (p : Fin 50000) (q : Fin 128) :
    val_main_v70 (F := Ideal) x12 (ix2 p q) = x12 (ix1 q) := by
  rw [val_main_v70_apply, val_main_v69_apply]
  exact congrArg x12 (funext fun a => Fin.ext (by
    match a with
    | ⟨0, _⟩ => rfl))

/-- Parameter vector 16, spread over one row and then over all rows, read at `(p, q)` is its entry `q`. -/
theorem at_v76 (x16 : (⟨S128, .f32⟩ : BufTy).Contents (Elt Ideal)) (p : Fin 50000) (q : Fin 128) :
    val_main_v76 (F := Ideal) x16 (ix2 p q) = x16 (ix1 q) := by
  rw [val_main_v76_apply, val_main_v75_apply]
  exact congrArg x16 (funext fun a => Fin.ext (by
    match a with
    | ⟨0, _⟩ => rfl))

/-- The variance offset, spread over a vector, is `Spec.eps` at every entry. -/
theorem at_v81 (j : S128.Idx) : val_main_v81 (F := Ideal) j = eps := by
  rw [val_main_v81_apply, val_main_cst_11_apply]
  rfl

/-- The reciprocal root of variance plus offset, spread over all rows, read at `(p, q)`. -/
theorem at_v85 (x17 : (⟨S128, .f32⟩ : BufTy).Contents (Elt Ideal)) (p : Fin 50000) (q : Fin 128) :
    val_main_v85 (F := Ideal) x17 (ix2 p q) = Ideal.rsqrt (x17 (ix1 q) + eps) := by
  rw [val_main_v85_apply, val_main_v84_apply, val_main_v83_apply, val_main_v82_apply, at_v81]
  have e : idx_main_v84 (idx_main_v85 (ix2 p q)) = ix1 q := funext fun a => Fin.ext (by
    match a with
    | ⟨0, _⟩ => rfl)
  rw [e]
  rfl

/-- Parameter vector 15, spread over one row and then over all rows, read at `(p, q)` is its entry `q`. -/
theorem at_v88 (x15 : (⟨S128, .f32⟩ : BufTy).Contents (Elt Ideal)) (p : Fin 50000) (q : Fin 128) :
    val_main_v88 (F := Ideal) x15 (ix2 p q) = x15 (ix1 q) := by
  rw [val_main_v88_apply, val_main_v87_apply]
  exact congrArg x15 (funext fun a => Fin.ext (by
    match a with
    | ⟨0, _⟩ => rfl))

/-- The zero splat of a positive part is `Spec.zero` at every entry. -/
theorem at_call2_v0 (i : S50000x128.Idx) : val_main_call2_v0 (F := Ideal) i = zero := by
  rw [val_main_call2_v0_apply, val_main_call2_cst_apply]
  rfl

/-- A product of the reference at `(p, q)`: row `p` of the left operand against column `q` of the right. -/
theorem at_v68 (x0 : (⟨S50000x64, .f32⟩ : BufTy).Contents (Elt Ideal)) (x1 x2 : (⟨S2x800000, .i32⟩ : BufTy).Contents (Elt Ideal)) (x4 : (⟨S800000x32, .f32⟩ : BufTy).Contents (Elt Ideal)) (x5 : (⟨S128x96, .f32⟩ : BufTy).Contents (Elt Ideal)) (x6 x7 x8 x9 x10 : (⟨S128, .f32⟩ : BufTy).Contents (Elt Ideal)) (x11 : (⟨S128x128, .f32⟩ : BufTy).Contents (Elt Ideal)) (p : Fin 50000) (q : Fin 128) :
    val_main_v68 (F := Ideal) x0 x1 x2 x4 x5 x6 x7 x8 x9 x10 x11 (ix2 p q) = ∑ k : Fin 128, (val_main_v66 (F := Ideal) x0 x1 x2 x4 x5 x6 x7 x8 x9 x10) (ix2 p k) * (val_main_v67 (F := Ideal) x11) (ix2 k q) := by
  rw [val_main_v68_apply]
  refine Finset.sum_congr rfl fun k _ => ?_
  have el : lidx_main_v68 (ix2 p q) k = ix2 p k := funext fun a => Fin.ext (by
    match a with
    | ⟨0, _⟩ => rfl
    | ⟨1, _⟩ => rfl)
  have er : ridx_main_v68 (ix2 p q) k = ix2 k q := funext fun a => Fin.ext (by
    match a with
    | ⟨0, _⟩ => rfl
    | ⟨1, _⟩ => rfl)
  rw [el, er]

/-- A product of the reference at `(p, q)`: row `p` of the left operand against column `q` of the right. -/
theorem at_v73 (x0 : (⟨S50000x64, .f32⟩ : BufTy).Contents (Elt Ideal)) (x1 : (⟨S2x800000, .i32⟩ : BufTy).Contents (Elt Ideal)) (x4 : (⟨S800000x32, .f32⟩ : BufTy).Contents (Elt Ideal)) (x5 : (⟨S128x96, .f32⟩ : BufTy).Contents (Elt Ideal)) (x6 x7 x8 x9 x10 : (⟨S128, .f32⟩ : BufTy).Contents (Elt Ideal)) (x13 : (⟨S128x128, .f32⟩ : BufTy).Contents (Elt Ideal)) (p : Fin 50000) (q : Fin 128) :
    val_main_v73 (F := Ideal) x0 x1 x4 x5 x6 x7 x8 x9 x10 x13 (ix2 p q) = ∑ k : Fin 128, (val_main_v44 (F := Ideal) x0 x1 x4 x5 x6 x7 x8 x9 x10) (ix2 p k) * (val_main_v72 (F := Ideal) x13) (ix2 k q) := by
  rw [val_main_v73_apply]
  refine Finset.sum_congr rfl fun k _ => ?_
  have el : lidx_main_v73 (ix2 p q) k = ix2 p k := funext fun a => Fin.ext (by
    match a with
    | ⟨0, _⟩ => rfl
    | ⟨1, _⟩ => rfl)
  have er : ridx_main_v73 (ix2 p q) k = ix2 k q := funext fun a => Fin.ext (by
    match a with
    | ⟨0, _⟩ => rfl
    | ⟨1, _⟩ => rfl)
  rw [el, er]

theorem sage_eq (x0 : (⟨S50000x64, .f32⟩ : BufTy).Contents (Elt Ideal)) (x1 x2 : (⟨S2x800000, .i32⟩ : BufTy).Contents (Elt Ideal)) (x4 : (⟨S800000x32, .f32⟩ : BufTy).Contents (Elt Ideal)) (x5 : (⟨S128x96, .f32⟩ : BufTy).Contents (Elt Ideal)) (x6 x7 x8 x9 x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 x15 x16 x17 : (⟨S128, .f32⟩ : BufTy).Contents (Elt Ideal)) :
    val_main_v90 (F := Ideal) x0 x1 x2 x4 x5 x6 x7 x8 x9 x10 x11 x12 x13 x14 x15 x16 x17
      = sageTwo (val_main_v66 (F := Ideal) x0 x1 x2 x4 x5 x6 x7 x8 x9 x10) (val_main_v44 (F := Ideal) x0 x1 x4 x5 x6 x7 x8 x9 x10) (val_main_v67 (F := Ideal) x11) (val_main_v72 (F := Ideal) x13)
          (row x12) (row x14) (row x15) (row x16) (row x17) := by
  funext i
  obtain ⟨p, q, rfl⟩ : ∃ (p : Fin 50000) (q : Fin 128), i = ix2 p q := ⟨i 0, i 1, eq_ix2 i⟩
  rw [val_main_v90_apply, val_main_v89_apply, val_main_v86_apply, val_main_v80_apply, val_main_v77_apply, val_main_v74_apply, val_main_v71_apply]
  rw [at_v79, at_v70, at_v76, at_v85, at_v88, at_call2_v0, at_v68, at_v73]
  rfl

end Cert.ReferenceIdeal.Hand2

end
-- ==== Proof.Ker1.lean ====
/-
  The first convolution's update on the kernel's side.

  The pipeline walks the 50000 node rows in 10 blocks of 5000. At a point `t` the body reads rows `5000 t …` of the
  aggregated messages and the four 1 × 128 parameter rows, and stores, entry by entry, the positive part of the
  normalised positive part. An entry `(r, j)` of the result depends on entry `(r, j)` of the messages and column `j` of
  the parameters only, and the 10 blocks tile the result: the array after the region is `Spec.post1` of the five
  arrays the region finds.
-/
import proofs.«146433_j64295660421275_1_alg».proof.Proof.Gen.KernelIdeal.Frame
import proofs.«146433_j64295660421275_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand1

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- A one-row array spread over 5000 rows reads its one row. -/
theorem bcast_apply (x : S1x128.Idx → EReal) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

/-- The body's stored value at `(p, q)`: the normalisation of the positive part of the block's entry, by column `q` of
    the four parameter rows, then the positive part. -/
theorem pay_apply (x0 : Vec Ideal S5000x128 .f32) (x1 x2 x3 x4 : Vec Ideal S1x128 .f32) (p : Fin 5000) (q : Fin 128) :
    k1_pay1 x0 x1 x2 x3 x4 (ix2 p q)
      = bnRelu (max (x0 (ix2 p q)) zero) (x1 (ix2 0 q)) (x2 (ix2 0 q)) (x3 (ix2 0 q)) (x4 (ix2 0 q)) := by
  unfold k1_pay1
  simp only [shapeCast_self, maximumf_apply, addf_apply, mulf_apply, subf_apply, bcast_apply]
  rfl

/-- What the body stores for a block of rows starting at row `5000 t`, against the whole arrays. -/
theorem blk_eq (A : Arr 50000 128) (G BE MU VV : Arr 1 128)
    (x0 : Vec Ideal S5000x128 .f32) (x1 x2 x3 x4 : Vec Ideal S1x128 .f32) (t : Nat)
    (h0 : ∀ (y : S5000x128.Idx) (i : S50000x128.Idx), (i 0).val = t * 5000 + (y 0).val → (i 1).val = (y 1).val → x0 y = A i)
    (h1 : ∀ y : S1x128.Idx, x1 y = G y) (h2 : ∀ y : S1x128.Idx, x2 y = BE y)
    (h3 : ∀ y : S1x128.Idx, x3 y = MU y) (h4 : ∀ y : S1x128.Idx, x4 y = VV y)
    (y : S5000x128.Idx) (i : S50000x128.Idx) (hi0 : (i 0).val = t * 5000 + (y 0).val) (hi1 : (i 1).val = (y 1).val) :
    k1_pay1 x0 x1 x2 x3 x4 y = post1 A G BE MU VV i := by
  obtain ⟨p, q, rfl⟩ : ∃ (p : Fin 5000) (q : Fin 128), y = ix2 p q := ⟨y 0, y 1, eq_ix2 y⟩
  rw [pay_apply]
  unfold post1
  have hq : i 1 = q := Fin.ext hi1
  rw [h0 (ix2 p q) i hi0 hi1, h1, h2, h3, h4, hq]

/-- The relations between the printed index maps, decided once over the 10 grid points: the row windows sit at
    block `t`, the others at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows `5000 t …` of the array the region finds. -/
theorem iblk_0 (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v25 : S50000x128.Idx → EReal) i := by
  obtain ⟨e0_0, e0_1, -, -, -, -, -, -, -, -, -, -⟩ := idx_facts t
  unfold iblk1
  rw [View.read_apply]
  show V c main_v25 _ = V c main_v25 i
  congr 1
  funext a
  apply Fin.ext
  match a with
  | ⟨0, _⟩ => show win1_0.index t 0 * 5000 + 1 * (y 0).val = (i 0).val; rw [e0_0, h0]; omega
  | ⟨1, _⟩ => show win1_0.index t 1 * 128 + 1 * (y 1).val = (i 1).val; rw [e0_1, h1]; omega

/-- Window 1's block at every point is its whole array. -/
theorem iblk_1 (c : Dev nD) (t : Fin cfg1.N) (y : S1x128.Idx) :
    (iblk1 V c 1 t : Vec Ideal S1x128 .f32) y = (V c main_v26 : S1x128.Idx → EReal) y := by
  obtain ⟨-, -, e1_0, e1_1, -, -, -, -, -, -, -, -⟩ := idx_facts t
  unfold iblk1
  rw [View.read_apply]
  show V c main_v26 _ = V c main_v26 y
  congr 1
  funext a
  apply Fin.ext
  match a with
  | ⟨0, _⟩ => show win1_1.index t 0 * 1 + 1 * (y 0).val = (y 0).val; rw [e1_0]; omega
  | ⟨1, _⟩ => show win1_1.index t 1 * 128 + 1 * (y 1).val = (y 1).val; rw [e1_1]; omega

/-- Window 2's block at every point is its whole array. -/
theorem iblk_2 (c : Dev nD) (t : Fin cfg1.N) (y : S1x128.Idx) :
    (iblk1 V c 2 t : Vec Ideal S1x128 .f32) y = (V c main_v27 : S1x128.Idx → EReal) y := by
  obtain ⟨-, -, -, -, e2_0, e2_1, -, -, -, -, -, -⟩ := idx_facts t
  unfold iblk1
  rw [View.read_apply]
  show V c main_v27 _ = V c main_v27 y
  congr 1
  funext a
  apply Fin.ext
  match a with
  | ⟨0, _⟩ => show win1_2.index t 0 * 1 + 1 * (y 0).val = (y 0).val; rw [e2_0]; omega
  | ⟨1, _⟩ => show win1_2.index t 1 * 128 + 1 * (y 1).val = (y 1).val; rw [e2_1]; omega

/-- Window 3's block at every point is its whole array. -/
theorem iblk_3 (c : Dev nD) (t : Fin cfg1.N) (y : S1x128.Idx) :
    (iblk1 V c 3 t : Vec Ideal S1x128 .f32) y = (V c main_v28 : S1x128.Idx → EReal) y := by
  obtain ⟨-, -, -, -, -, -, e3_0, e3_1, -, -, -, -⟩ := idx_facts t
  unfold iblk1
  rw [View.read_apply]
  show V c main_v28 _ = V c main_v28 y
  congr 1
  funext a
  apply Fin.ext
  match a with
  | ⟨0, _⟩ => show win1_3.index t 0 * 1 + 1 * (y 0).val = (y 0).val; rw [e3_0]; omega
  | ⟨1, _⟩ => show win1_3.index t 1 * 128 + 1 * (y 1).val = (y 1).val; rw [e3_1]; omega

/-- Window 4's block at every point is its whole array. -/
theorem iblk_4 (c : Dev nD) (t : Fin cfg1.N) (y : S1x128.Idx) :
    (iblk1 V c 4 t : Vec Ideal S1x128 .f32) y = (V c main_v29 : S1x128.Idx → EReal) y := by
  obtain ⟨-, -, -, -, -, -, -, -, e4_0, e4_1, -, -⟩ := idx_facts t
  unfold iblk1
  rw [View.read_apply]
  show V c main_v29 _ = V c main_v29 y
  congr 1
  funext a
  apply Fin.ext
  match a with
  | ⟨0, _⟩ => show win1_4.index t 0 * 1 + 1 * (y 0).val = (y 0).val; rw [e4_0]; omega
  | ⟨1, _⟩ => show win1_4.index t 1 * 128 + 1 * (y 1).val = (y 1).val; rw [e4_1]; omega

/-- What point `t` writes back is block `t` of `Spec.post1` of the arrays the region finds. -/
theorem flushed_eq (c : Dev nD) (t : Fin cfg1.N) :
    (dat1 V c).flushed 5 t = ((cfg1.win 5).blk t).view.read (Elt Ideal)
      (post1 (V c main_v25) (V c main_v26) (V c main_v27) (V c main_v28) (V c main_v29) : S50000x128.Idx → EReal) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  obtain ⟨-, -, -, -, -, -, -, -, -, -, e5_0, e5_1⟩ := idx_facts t
  funext j
  rw [View.read_apply]
  refine blk_eq (V c main_v25) (V c main_v26) (V c main_v27) (V c main_v28) (V c main_v29) (iblk1 V c 0 t) (iblk1 V c 1 t) (iblk1 V c 2 t) (iblk1 V c 3 t) (iblk1 V c 4 t) t.val
    (fun y i h0 h1 => iblk_0 V c t y i h0 h1) (fun y => iblk_1 V c t y) (fun y => iblk_2 V c t y) (fun y => iblk_3 V c t y) (fun y => iblk_4 V c t y) j _ ?_ ?_
  · show win1_5.index t 0 * 5000 + 1 * (j 0).val = t.val * 5000 + (j 0).val; rw [e5_0]; omega
  · show win1_5.index t 1 * 128 + 1 * (j 1).val = (j 1).val; rw [e5_1]; omega

/-- An index of the result is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v30).slice (win1_5.rect t)).set ↔ _
  rw [View.set_slice_whole, Rect.mem_set_unit]
  exact Iff.rfl

/-- The 10 blocks of 5000 rows tile the result: row `r` is in block `r / 5000`. So the result array after the region
    is `Spec.post1` of the arrays the region finds. -/
theorem final (c : Dev nD) :
    (dat1 V c).arrAt 5 cfg1.N = (post1 (V c main_v25) (V c main_v26) (V c main_v27) (V c main_v28) (V c main_v29) : S50000x128.Idx → EReal) :=
  (dat1 V c).arrAt_eq_of_cover 5 _ (fun t _ => flushed_eq V c t) fun i => by
    have hi0 : (i 0).val < 50000 := (i 0).isLt
    have hi1 : (i 1).val < 128 := (i 1).isLt
    have hN : cfg1.N = 10 := N_1
    have ht : (i 0).val / 5000 < cfg1.N := by rw [hN]; omega
    obtain ⟨-, -, -, -, -, -, -, -, -, -, e5_0, e5_1⟩ := idx_facts ⟨(i 0).val / 5000, ht⟩
    refine ⟨⟨(i 0).val / 5000, ht⟩, flush1_5 _, ?_⟩
    rw [mem_blk]
    intro a
    match a with
    | ⟨0, _⟩ =>
      show win1_5.index ⟨(i 0).val / 5000, ht⟩ 0 * 5000 ≤ (i 0).val ∧ (i 0).val < win1_5.index ⟨(i 0).val / 5000, ht⟩ 0 * 5000 + 5000
      rw [e5_0]; show (i 0).val / 5000 * 5000 ≤ (i 0).val ∧ (i 0).val < (i 0).val / 5000 * 5000 + 5000; omega
    | ⟨1, _⟩ =>
      show win1_5.index ⟨(i 0).val / 5000, ht⟩ 1 * 128 ≤ (i 1).val ∧ (i 1).val < win1_5.index ⟨(i 0).val / 5000, ht⟩ 1 * 128 + 128
      rw [e5_1]; omega

end Cert.KernelIdeal.Hand1

end
-- ==== Proof.Ref1.lean ====
/-
  The first convolution's update on the reference's side: the positive part of the mean-aggregated messages,
  normalised with the stored statistics (each parameter vector spread over the rows), then the positive part —
  `Spec.post1` of the aggregate and the four parameter vectors as rows, read index by index.
-/
import proofs.«146433_j64295660421275_1_alg».proof.Proof.Gen.ReferenceIdeal.Read
import proofs.«146433_j64295660421275_1_alg».proof.Proof.Spec

set_option maxRecDepth 16384

noncomputable section

open Idealize.ShloMosaic Idealize.ShloMosaic.ValueIdx

namespace Cert.ReferenceIdeal.Hand1

open Cert.ReferenceIdeal Cert.ReferenceIdeal.Read Cert.Spec

/-- Parameter vector 7, spread over one row and then over all rows, read at `(p, q)` is its entry `q`. -/
theorem at_v33 (x7 : (⟨S128, .f32⟩ : BufTy).Contents (Elt Ideal)) (p : Fin 50000) (q : Fin 128) :
    val_main_v33 (F := Ideal) x7 (ix2 p q) = x7 (ix1 q) := by
  rw [val_main_v33_apply, val_main_v32_apply]
  exact congrArg x7 (funext fun a => Fin.ext (by
    match a with
    | ⟨0, _⟩ => rfl))

/-- Parameter vector 9, spread over one row and then over all rows, read at `(p, q)` is its entry `q`. -/
theorem at_v30 (x9 : (⟨S128, .f32⟩ : BufTy).Contents (Elt Ideal)) (p : Fin 50000) (q : Fin 128) :
    val_main_v30 (F := Ideal) x9 (ix2 p q) = x9 (ix1 q) := by
  rw [val_main_v30_apply, val_main_v29_apply]
  exact congrArg x9 (funext fun a => Fin.ext (by
    match a with
    | ⟨0, _⟩ => rfl))

/-- The variance offset, spread over a vector, is `Spec.eps` at every entry. -/
theorem at_v35 (j : S128.Idx) : val_main_v35 (F := Ideal) j = eps := by
  rw [val_main_v35_apply, val_main_cst_4_apply]
  rfl

/-- The reciprocal root of variance plus offset, spread over all rows, read at `(p, q)`. -/
theorem at_v39 (x10 : (⟨S128, .f32⟩ : BufTy).Contents (Elt Ideal)) (p : Fin 50000) (q : Fin 128) :
    val_main_v39 (F := Ideal) x10 (ix2 p q) = Ideal.rsqrt (x10 (ix1 q) + eps) := by
  rw [val_main_v39_apply, val_main_v38_apply, val_main_v37_apply, val_main_v36_apply, at_v35]
  have e : idx_main_v38 (idx_main_v39 (ix2 p q)) = ix1 q := funext fun a => Fin.ext (by
    match a with
    | ⟨0, _⟩ => rfl)
  rw [e]
  rfl

/-- Parameter vector 8, spread over one row and then over all rows, read at `(p, q)` is its entry `q`. -/
theorem at_v42 (x8 : (⟨S128, .f32⟩ : BufTy).Contents (Elt Ideal)) (p : Fin 50000) (q : Fin 128) :
    val_main_v42 (F := Ideal) x8 (ix2 p q) = x8 (ix1 q) := by
  rw [val_main_v42_apply, val_main_v41_apply]
  exact congrArg x8 (funext fun a => Fin.ext (by
    match a with
    | ⟨0, _⟩ => rfl))

/-- The zero splat of a positive part is `Spec.zero` at every entry. -/
theorem at_call0_v0 (i : S50000x128.Idx) : val_main_call0_v0 (F := Ideal) i = zero := by
  rw [val_main_call0_v0_apply, val_main_call0_cst_apply]
  rfl

/-- The zero splat of a positive part is `Spec.zero` at every entry. -/
theorem at_call1_v0 (i : S50000x128.Idx) : val_main_call1_v0 (F := Ideal) i = zero := by
  rw [val_main_call1_v0_apply, val_main_call1_cst_apply]
  rfl

theorem post_eq (x0 : (⟨S50000x64, .f32⟩ : BufTy).Contents (Elt Ideal)) (x1 : (⟨S2x800000, .i32⟩ : BufTy).Contents (Elt Ideal)) (x4 : (⟨S800000x32, .f32⟩ : BufTy).Contents (Elt Ideal)) (x5 : (⟨S128x96, .f32⟩ : BufTy).Contents (Elt Ideal)) (x6 x7 x8 x9 x10 : (⟨S128, .f32⟩ : BufTy).Contents (Elt Ideal)) :
    val_main_v44 (F := Ideal) x0 x1 x4 x5 x6 x7 x8 x9 x10
      = post1 (val_main_v27 (F := Ideal) x0 x1 x4 x5 x6) (row x7) (row x8) (row x9) (row x10) := by
  funext i
  obtain ⟨p, q, rfl⟩ : ∃ (p : Fin 50000) (q : Fin 128), i = ix2 p q := ⟨i 0, i 1, eq_ix2 i⟩
  rw [val_main_v44_apply, val_main_v43_apply, val_main_v40_apply, val_main_v34_apply, val_main_v31_apply, val_main_v28_apply]
  rw [at_v33, at_v30, at_v39, at_v42, at_call0_v0, at_call1_v0]
  rfl

end Cert.ReferenceIdeal.Hand1

end
-- ==== Proof.Ker0.lean ====
/-
  The first dense stage on the kernel's side: the message array.

  The pipeline walks the 800000 edge rows in 100 blocks of 8000. At a point `t` the body reads rows
  `8000 t … 8000 t + 7999` of the joined edge features, the whole 96 × 128 weight and the 1 × 128 offset, and stores
  `rows · weight + offset` as rows `8000 t …` of the result. An entry `(r, j)` of the result therefore depends on row `r`
  of the features only, and the 100 blocks tile the result: the array after the region is `Spec.lin` of the three
  arrays the region finds, whatever they are.
-/
import proofs.«146433_j64295660421275_1_alg».proof.Proof.Gen.KernelIdeal.Frame
import proofs.«146433_j64295660421275_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand0

open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-! ### The matrix product `dot_S8000x96_S96x128_S8000x128_1_0_0_1_n_n` at an index -/

theorem l0_0 (i : S8000x128.Idx) (q : dot_S8000x96_S96x128_S8000x128_1_0_0_1_n_n.contr.Idx) :
    (dot_S8000x96_S96x128_S8000x128_1_0_0_1_n_n.lhsIdx i q 0).val = (i 0).val := by
  unfold DotDims.lhsIdx
  rw [dif_neg (show ¬(0 : Fin S8000x96.rank) ∈ dot_S8000x96_S96x128_S8000x128_1_0_0_1_n_n.lhsBatch by decide), dif_pos (show (0 : Fin S8000x96.rank) ∈ dot_S8000x96_S96x128_S8000x128_1_0_0_1_n_n.lhsNonContracting by decide)]
  rfl
theorem l0_1 (i : S8000x128.Idx) (q : dot_S8000x96_S96x128_S8000x128_1_0_0_1_n_n.contr.Idx) :
    (dot_S8000x96_S96x128_S8000x128_1_0_0_1_n_n.lhsIdx i q 1).val = (q ⟨0, by decide⟩).val :=
  dot_S8000x96_S96x128_S8000x128_1_0_0_1_n_n.lhsIdx_val_of_single rfl i q
theorem r0_0 (i : S8000x128.Idx) (q : dot_S8000x96_S96x128_S8000x128_1_0_0_1_n_n.contr.Idx) :
    (dot_S8000x96_S96x128_S8000x128_1_0_0_1_n_n.rhsIdx i q 0).val = (q ⟨0, by decide⟩).val :=
  dot_S8000x96_S96x128_S8000x128_1_0_0_1_n_n.rhsIdx_val_of_single rfl i q
theorem r0_1 (i : S8000x128.Idx) (q : dot_S8000x96_S96x128_S8000x128_1_0_0_1_n_n.contr.Idx) :
    (dot_S8000x96_S96x128_S8000x128_1_0_0_1_n_n.rhsIdx i q 1).val = (i 1).val := by
  unfold DotDims.rhsIdx
  rw [dif_neg (show ¬(1 : Fin S96x128.rank) ∈ dot_S8000x96_S96x128_S8000x128_1_0_0_1_n_n.rhsBatch by decide), dif_pos (show (1 : Fin S96x128.rank) ∈ dot_S8000x96_S96x128_S8000x128_1_0_0_1_n_n.rhsNonContracting by decide)]
  rfl

/-- Entry `(p, q)` of the product into the zero accumulator is the sum over the 96 contracted positions of row `p`
    of the left operand against column `q` of the right. -/
theorem mm0_apply {φ₁ φ₂ : FTy} (l : FVec Ideal S8000x96 φ₁) (r : FVec Ideal S96x128 φ₂) (p : Fin 8000) (q : Fin 128) :
    matmul dot_S8000x96_S96x128_S8000x128_1_0_0_1_n_n none l r (constant S8000x128 .f32 0x00000000#32) (ix2 p q)
      = ∑ k : Fin 96, l (ix2 p k) * r (ix2 k q) := by
  show FloatOps.matmul dot_S8000x96_S96x128_S8000x128_1_0_0_1_n_n none l r (constant S8000x128 .f32 0x00000000#32) (ix2 p q) = _
  rw [Ideal.matmul_constant_zero_apply, ← Equiv.sum_comp (contrEquiv1 dot_S8000x96_S96x128_S8000x128_1_0_0_1_n_n 96 rfl rfl).symm]
  refine Finset.sum_congr rfl fun k _ => ?_
  have hk := contrEquiv1_symm_val dot_S8000x96_S96x128_S8000x128_1_0_0_1_n_n 96 rfl rfl k
  have el : dot_S8000x96_S96x128_S8000x128_1_0_0_1_n_n.lhsIdx (ix2 p q) ((contrEquiv1 dot_S8000x96_S96x128_S8000x128_1_0_0_1_n_n 96 rfl rfl).symm k) = ix2 p k := funext fun a => Fin.ext (by
    match a with
    | ⟨0, _⟩ => exact l0_0 _ _
    | ⟨1, _⟩ => exact (l0_1 _ _).trans hk)
  have er : dot_S8000x96_S96x128_S8000x128_1_0_0_1_n_n.rhsIdx (ix2 p q) ((contrEquiv1 dot_S8000x96_S96x128_S8000x128_1_0_0_1_n_n 96 rfl rfl).symm k) = ix2 k q := funext fun a => Fin.ext (by
    match a with
    | ⟨0, _⟩ => exact (r0_0 _ _).trans hk
    | ⟨1, _⟩ => exact r0_1 _ _)
  rw [el, er]

/-- A one-row array spread over 8000 rows reads its one row. -/
theorem bcast_apply (x : S1x128.Idx → EReal) (h : S1x128.Broadcasts S8000x128) (p : Fin 8000) (q : Fin 128) :
    broadcastTo S8000x128 x h (ix2 p q) = x (ix2 0 q) :=
  broadcastTo_apply x h (ix2 p q) (ix2 0 q) fun a => by
    match a with
    | ⟨0, _⟩ => rfl
    | ⟨1, _⟩ => rfl

/-- The body's stored value at `(p, q)`: row `p` of the block against column `q` of the weight, plus the offset. -/
theorem pay_apply (x0 : Vec Ideal S8000x96 .f32) (x1 : Vec Ideal S96x128 .f32) (x2 : Vec Ideal S1x128 .f32)
    (p : Fin 8000) (q : Fin 128) :
    k0_pay1 x0 x1 x2 (ix2 p q) = (∑ k : Fin 96, x0 (ix2 p k) * x1 (ix2 k q)) + x2 (ix2 0 q) := by
  unfold k0_pay1
  simp only [shapeCast_self, addf_apply]
  rw [mm0_apply, bcast_apply]
  rfl

/-- What the body stores for a block of rows starting at row `8000 t`, against the whole arrays: entry `y` of the
    block is entry `(8000 t + y₀, y₁)` of `Spec.lin`. -/
theorem blk_eq (A : Arr 800000 96) (W : Arr 96 128) (B : Arr 1 128)
    (x0 : Vec Ideal S8000x96 .f32) (x1 : Vec Ideal S96x128 .f32) (x2 : Vec Ideal S1x128 .f32) (t : Nat)
    (h0 : ∀ (y : S8000x96.Idx) (i : S800000x96.Idx), (i 0).val = t * 8000 + (y 0).val → (i 1).val = (y 1).val → x0 y = A i)
    (h1 : ∀ y : S96x128.Idx, x1 y = W y) (h2 : ∀ y : S1x128.Idx, x2 y = B y)
    (y : S8000x128.Idx) (i : S800000x128.Idx) (hi0 : (i 0).val = t * 8000 + (y 0).val) (hi1 : (i 1).val = (y 1).val) :
    k0_pay1 x0 x1 x2 y = lin A W B i := by
  obtain ⟨p, q, rfl⟩ : ∃ (p : Fin 8000) (q : Fin 128), y = ix2 p q := ⟨y 0, y 1, eq_ix2 y⟩
  rw [pay_apply]
  unfold lin
  have hq : i 1 = q := Fin.ext hi1
  rw [h2, hq]
  congr 1
  refine Finset.sum_congr rfl fun k _ => ?_
  rw [h0 (ix2 p k) (ix2 (i 0) k) hi0 rfl, h1]

/-- The relations between the printed index maps, decided once over the 100 grid points: the row windows sit at
    block `t`, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point `t` is rows `8000 t …` of the array the region finds. -/
theorem iblk_rows (c : Dev nD) (t : Fin cfg0.N) (y : S8000x96.Idx) (i : S800000x96.Idx)
    (h0 : (i 0).val = t.val * 8000 + (y 0).val) (h1 : (i 1).val = (y 1).val) :
    (iblk0 V c 0 t : Vec Ideal S8000x96 .f32) y = (V c main_v9 : S800000x96.Idx → EReal) i := by
  obtain ⟨e0, e1, -⟩ := idx_facts t
  unfold iblk0
  rw [View.read_apply]
  show V c main_v9 _ = V c main_v9 i
  congr 1
  funext a
  apply Fin.ext
  match a with
  | ⟨0, _⟩ => show win0_0.index t 0 * 8000 + 1 * (y 0).val = (i 0).val; rw [e0, h0]; omega
  | ⟨1, _⟩ => show win0_0.index t 1 * 96 + 1 * (y 1).val = (i 1).val; rw [e1, h1]; omega

/-- The weight's block at every point is the whole weight. -/
theorem iblk_w (c : Dev nD) (t : Fin cfg0.N) (y : S96x128.Idx) :
    (iblk0 V c 1 t : Vec Ideal S96x128 .f32) y = (V c main_v10 : S96x128.Idx → EReal) y := by
  obtain ⟨-, -, e2, e3, -⟩ := idx_facts t
  unfold iblk0
  rw [View.read_apply]
  show V c main_v10 _ = V c main_v10 y
  congr 1
  funext a
  apply Fin.ext
  match a with
  | ⟨0, _⟩ => show win0_1.index t 0 * 96 + 1 * (y 0).val = (y 0).val; rw [e2]; omega
  | ⟨1, _⟩ => show win0_1.index t 1 * 128 + 1 * (y 1).val = (y 1).val; rw [e3]; omega

/-- The offset's block at every point is the whole offset row. -/
theorem iblk_b (c : Dev nD) (t : Fin cfg0.N) (y : S1x128.Idx) :
    (iblk0 V c 2 t : Vec Ideal S1x128 .f32) y = (V c main_v11 : S1x128.Idx → EReal) y := by
  obtain ⟨-, -, -, -, e4, e5, -⟩ := idx_facts t
  unfold iblk0
  rw [View.read_apply]
  show V c main_v11 _ = V c main_v11 y
  congr 1
  funext a
  apply Fin.ext
  match a with
  | ⟨0, _⟩ => show win0_2.index t 0 * 1 + 1 * (y 0).val = (y 0).val; rw [e4]; omega
  | ⟨1, _⟩ => show win0_2.index t 1 * 128 + 1 * (y 1).val = (y 1).val; rw [e5]; omega

/-- What point `t` writes back is block `t` of `Spec.lin` of the arrays the region finds. -/
theorem flushed_eq (c : Dev nD) (t : Fin cfg0.N) :
    (dat0 V c).flushed 3 t = ((cfg0.win 3).blk t).view.read (Elt Ideal)
      (lin (V c main_v9) (V c main_v10) (V c main_v11) : S800000x128.Idx → EReal) := by
  show (cfg0.win 3).cut (grid0.coords t) ((dat0 V c).after 3 t) = _
  rw [after0_3]
  unfold out0_3
  rw [View.canon_unit_zero hz]
  simp only [View.ld_unit_zero (S := S8000x96) hz, View.ld_unit_zero (S := S96x128) hz, View.ld_unit_zero (S := S1x128) hz]
  obtain ⟨-, -, -, -, -, -, e6, e7⟩ := idx_facts t
  funext j
  rw [View.read_apply]
  refine blk_eq (V c main_v9) (V c main_v10) (V c main_v11) (iblk0 V c 0 t) (iblk0 V c 1 t) (iblk0 V c 2 t) t.val
    (fun y i h0 h1 => iblk_rows V c t y i h0 h1) (fun y => iblk_w V c t y) (fun y => iblk_b V c t y) j _ ?_ ?_
  · show win0_3.index t 0 * 8000 + 1 * (j 0).val = t.val * 8000 + (j 0).val; rw [e6]; omega
  · show win0_3.index t 1 * 128 + 1 * (j 1).val = (j 1).val; rw [e7]; omega

/-- An index of the result is in point `t`'s block iff each coordinate is in the block's range on its axis. -/
theorem mem_blk (t : Fin cfg0.N) (i : S800000x128.Idx) :
    i ∈ ((cfg0.win 3).blk t).view.set ↔ ∀ a : Fin 2, win0_3.index t a * S8000x128.size a ≤ (i a).val
      ∧ (i a).val < win0_3.index t a * S8000x128.size a + S8000x128.size a := by
  show i ∈ ((View.whole main_v12).slice (win0_3.rect t)).set ↔ _
  rw [View.set_slice_whole, Rect.mem_set_unit]
  exact Iff.rfl

/-- The 100 blocks of 8000 rows tile the result: row `r` is in block `r / 8000`. So the result array after the region
    is `Spec.lin` of the three arrays the region finds. -/
theorem final (c : Dev nD) :
    (dat0 V c).arrAt 3 cfg0.N = (lin (V c main_v9) (V c main_v10) (V c main_v11) : S800000x128.Idx → EReal) :=
  (dat0 V c).arrAt_eq_of_cover 3 _ (fun t _ => flushed_eq V c t) fun i => by
    have hi0 : (i 0).val < 800000 := (i 0).isLt
    have hi1 : (i 1).val < 128 := (i 1).isLt
    have hN : cfg0.N = 100 := N_0
    have ht : (i 0).val / 8000 < cfg0.N := by rw [hN]; omega
    obtain ⟨-, -, -, -, -, -, e6, e7⟩ := idx_facts ⟨(i 0).val / 8000, ht⟩
    refine ⟨⟨(i 0).val / 8000, ht⟩, flush0_3 _, ?_⟩
    rw [mem_blk]
    intro a
    match a with
    | ⟨0, _⟩ =>
      show win0_3.index ⟨(i 0).val / 8000, ht⟩ 0 * 8000 ≤ (i 0).val ∧ (i 0).val < win0_3.index ⟨(i 0).val / 8000, ht⟩ 0 * 8000 + 8000
      rw [e6]; show (i 0).val / 8000 * 8000 ≤ (i 0).val ∧ (i 0).val < (i 0).val / 8000 * 8000 + 8000; omega
    | ⟨1, _⟩ =>
      show win0_3.index ⟨(i 0).val / 8000, ht⟩ 1 * 128 ≤ (i 1).val ∧ (i 1).val < win0_3.index ⟨(i 0).val / 8000, ht⟩ 1 * 128 + 128
      rw [e7]; omega

end Cert.KernelIdeal.Hand0

end
-- ==== Proof.Ref0.lean ====
/-
  The first dense stage on the reference's side: the messages are the joined edge features times the transposed
  weight, plus the offset spread over the rows — `Spec.lin` of those three arrays, read index by index.
-/
import proofs.«146433_j64295660421275_1_alg».proof.Proof.Gen.ReferenceIdeal.Read
import proofs.«146433_j64295660421275_1_alg».proof.Proof.Spec

set_option maxRecDepth 16384

noncomputable section

open Idealize.ShloMosaic Idealize.ShloMosaic.ValueIdx

namespace Cert.ReferenceIdeal.Hand0

open Cert.ReferenceIdeal Cert.ReferenceIdeal.Read Cert.Spec

theorem msg_eq (x0 : (⟨S50000x64, .f32⟩ : BufTy).Contents (Elt Ideal)) (x1 : (⟨S2x800000, .i32⟩ : BufTy).Contents (Elt Ideal))
    (x4 : (⟨S800000x32, .f32⟩ : BufTy).Contents (Elt Ideal)) (x5 : (⟨S128x96, .f32⟩ : BufTy).Contents (Elt Ideal))
    (x6 : (⟨S128, .f32⟩ : BufTy).Contents (Elt Ideal)) :
    val_main_v14 (F := Ideal) x0 x1 x4 x5 x6
      = lin (val_main_v9 (F := Ideal) x0 x1 x4) (val_main_v10 (F := Ideal) x5) (row x6) := by
  funext i
  obtain ⟨p, q, rfl⟩ : ∃ (p : Fin 800000) (q : Fin 128), i = ix2 p q := ⟨i 0, i 1, eq_ix2 i⟩
  rw [val_main_v14_apply, val_main_v11_apply, val_main_v13_apply, val_main_v12_apply]
  have el : ∀ k : Fin 96, lidx_main_v11 (ix2 p q) k = ix2 p k := fun k => funext fun a => Fin.ext (by
    match a with
    | ⟨0, _⟩ => rfl
    | ⟨1, _⟩ => rfl)
  have er : ∀ k : Fin 96, ridx_main_v11 (ix2 p q) k = ix2 k q := fun k => funext fun a => Fin.ext (by
    match a with
    | ⟨0, _⟩ => rfl
    | ⟨1, _⟩ => rfl)
  have eb : idx_main_v12 (idx_main_v13 (ix2 p q)) = ix1 q := funext fun a => Fin.ext (by
    match a with
    | ⟨0, _⟩ => rfl)
  simp only [el, er, eb]
  rfl

end Cert.ReferenceIdeal.Hand0

end
-- ==== Proof.Bridge0.lean ====
/-
  The two programs meet after the first dense stage: the message array.

  The host operations before the stage are the same on both sides (the source rows gathered by edge, joined with the
  edge attributes; the weight transposed); only the offset differs in spelling — the kernel reshapes the vector to one
  row, the reference spreads it — and both are `Spec.row` of it. The stage itself is `Spec.lin` of those three arrays
  on both sides.
-/
import proofs.«146433_j64295660421275_1_alg».proof.Proof.Gen.KernelIdeal.Frame
import proofs.«146433_j64295660421275_1_alg».proof.Proof.Ker0
import proofs.«146433_j64295660421275_1_alg».proof.Proof.Ref0
import proofs.«146433_j64295660421275_1_alg».proof.Proof.Keep
import proofs.«146433_j64295660421275_1_alg».proof.Proof.Spec
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.Bridge

open Cert.KernelIdeal Cert.KernelIdeal.Gen Cert.Spec

variable (m : (ℓ : Loc nD τ sig) → Buf (Elt Ideal) ℓ) (ρ : Dev nD → PrngReg)

/-- A vector reshaped to a one-row array is `Spec.row` of it. -/
theorem reshape_row {n : Nat} (x : (⟨1, ![n]⟩ : Shape).Idx → EReal)
    (h : (⟨1, ![n]⟩ : Shape).ShapeCasts (⟨2, ![1, n]⟩ : Shape)) :
    shapeCast (⟨2, ![1, n]⟩ : Shape) x h = row x := by
  funext i
  obtain ⟨p, q, rfl⟩ : ∃ (p : Fin 1) (q : Fin n), i = ix2 p q := ⟨i 0, i 1, eq_ix2 i⟩
  refine shapeCast_apply x h (ix2 p q) (ix1 q) ?_
  rw [Shape.rowMajor_val_one, Shape.rowMajor_val_two]
  show q.val = p.val * n + q.val
  have := p.isLt
  have hp : p.val = 0 := by omega
  rw [hp, Nat.zero_mul, Nat.zero_add]

/-- The joined edge features the first stage finds are the reference's. -/
theorem in0_cat (c : Dev nD) :
    (V1 m ρ c main_v9 : S800000x96.Idx → EReal) = Cert.ReferenceIdeal.Read.val_main_v9 (F := Ideal) (m ((c : Thread nD τ).loc main_arg0)) (m ((c : Thread nD τ).loc main_arg1)) (m ((c : Thread nD τ).loc main_arg4)) := by
  show StableHlo.after hostOps0 (W0 m ρ c) (Proc.devRef .tc main_v9) = _
  after_results
  rfl

/-- The transposed weight the first stage finds is the reference's. -/
theorem in0_w (c : Dev nD) :
    (V1 m ρ c main_v10 : S96x128.Idx → EReal) = Cert.ReferenceIdeal.Read.val_main_v10 (F := Ideal) (m ((c : Thread nD τ).loc main_arg5)) := by
  show StableHlo.after hostOps0 (W0 m ρ c) (Proc.devRef .tc main_v10) = _
  after_results
  rfl

/-- The offset the first stage finds is the offset vector as one row. -/
theorem in0_b (c : Dev nD) :
    (V1 m ρ c main_v11 : S1x128.Idx → EReal) = row (m ((c : Thread nD τ).loc main_arg6)) := by
  show StableHlo.after hostOps0 (W0 m ρ c) (Proc.devRef .tc main_v11) = _
  after_results
  exact reshape_row _ _

/-- After the first dense stage the kernel's message array is the reference's. -/
theorem stage0 (c : Dev nD) :
    W2 m ρ c (Proc.devRef .tc main_v12) = Cert.ReferenceIdeal.Read.val_main_v14 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W2_arr m ρ c 3).trans ?_
  rw [Cert.KernelIdeal.Hand0.final (V1 m ρ) c, Cert.ReferenceIdeal.Hand0.msg_eq, in0_cat m ρ c, in0_w m ρ c, in0_b m ρ c]

end Cert.Bridge

end
-- ==== Proof.Bridge1.lean ====
/-
  The two programs meet after the first convolution's update.

  Between the first two dense stages both programs aggregate the messages by destination node — a scatter-add of the
  messages and of ones, the count clamped below at one, the quotient — with the same host operations applied to the
  same message array and the same edge list, so the aggregates agree. The four parameter vectors reach the stage as
  one-row arrays. The stage itself is `Spec.post1` on both sides.
-/
import proofs.«146433_j64295660421275_1_alg».proof.Proof.Gen.KernelIdeal.Frame
import proofs.«146433_j64295660421275_1_alg».proof.Proof.Ker1
import proofs.«146433_j64295660421275_1_alg».proof.Proof.Ref1
import proofs.«146433_j64295660421275_1_alg».proof.Proof.Keep
import proofs.«146433_j64295660421275_1_alg».proof.Proof.Spec
import proofs.«146433_j64295660421275_1_alg».proof.Proof.Bridge0
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.Bridge

open Cert.KernelIdeal Cert.KernelIdeal.Gen Cert.Spec

variable (m : (ℓ : Loc nD τ sig) → Buf (Elt Ideal) ℓ) (ρ : Dev nD → PrngReg)

set_option maxHeartbeats 4000000 in
/-- The mean-aggregated messages the stage finds are the reference's. -/
theorem in1_h (c : Dev nD) : (V3 m ρ c main_v25 : S50000x128.Idx → EReal) = Cert.ReferenceIdeal.Read.val_main_v27 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps1 (W2 m ρ c) (Proc.devRef .tc main_v25) = _
  after_results_simp
  rw [Cert.KernelIdeal.HandKeep.arg1_at_W2 m ρ c, stage0 m ρ c]
  rfl

/-- Parameter vector 7 as the stage finds it: the vector as one row. -/
theorem in1_p7 (c : Dev nD) : (V3 m ρ c main_v26 : S1x128.Idx → EReal) = row (m ((c : Thread nD τ).loc main_arg7)) := by
  show StableHlo.after hostOps1 (W2 m ρ c) (Proc.devRef .tc main_v26) = _
  after_results
  rw [Cert.KernelIdeal.HandKeep.arg7_at_W2 m ρ c]
  exact reshape_row _ _

/-- Parameter vector 8 as the stage finds it: the vector as one row. -/
theorem in1_p8 (c : Dev nD) : (V3 m ρ c main_v27 : S1x128.Idx → EReal) = row (m ((c : Thread nD τ).loc main_arg8)) := by
  show StableHlo.after hostOps1 (W2 m ρ c) (Proc.devRef .tc main_v27) = _
  after_results
  rw [Cert.KernelIdeal.HandKeep.arg8_at_W2 m ρ c]
  exact reshape_row _ _

/-- Parameter vector 9 as the stage finds it: the vector as one row. -/
theorem in1_p9 (c : Dev nD) : (V3 m ρ c main_v28 : S1x128.Idx → EReal) = row (m ((c : Thread nD τ).loc main_arg9)) := by
  show StableHlo.after hostOps1 (W2 m ρ c) (Proc.devRef .tc main_v28) = _
  after_results
  rw [Cert.KernelIdeal.HandKeep.arg9_at_W2 m ρ c]
  exact reshape_row _ _

/-- Parameter vector 10 as the stage finds it: the vector as one row. -/
theorem in1_p10 (c : Dev nD) : (V3 m ρ c main_v29 : S1x128.Idx → EReal) = row (m ((c : Thread nD τ).loc main_arg10)) := by
  show StableHlo.after hostOps1 (W2 m ρ c) (Proc.devRef .tc main_v29) = _
  after_results
  rw [Cert.KernelIdeal.HandKeep.arg10_at_W2 m ρ c]
  exact reshape_row _ _

/-- After the first convolution's update the kernel's node features are the reference's. -/
theorem stage1 (c : Dev nD) :
    W4 m ρ c (Proc.devRef .tc main_v30) = Cert.ReferenceIdeal.Read.val_main_v44 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ?_
  rw [Cert.KernelIdeal.Hand1.final (V3 m ρ) c, Cert.ReferenceIdeal.Hand1.post_eq,
    in1_h m ρ c, in1_p7 m ρ c, in1_p8 m ρ c, in1_p9 m ρ c, in1_p10 m ρ c]

end Cert.Bridge

end
-- ==== Proof.Join.lean ====
/-
  The two arrangements of a graph-convolution stage are one function.

  The joined array `[agg | h]` read at column `k < 128` is `agg` at `k`, and at column `128 + k` it is `h` at `k`. The two
  weights stacked side by side and then transposed, read at row `k < 128`, is the transposed neighbour weight at row
  `k`, and at row `128 + k` the transposed self weight at row `k`. So the one sum over 256 columns splits in the two
  sums over 128 (`Spec.lin_split`), and `Spec.sageCat` of the joined operands is `Spec.sageTwo` of the pieces.
-/
import proofs.«146433_j64295660421275_1_alg».proof.Proof.Spec
import Idealize.ShloMosaic.Lib.Pipeline.Value
import Idealize.ShloMosaic.Lib.ValueIdx

set_option maxRecDepth 16384

noncomputable section

open Idealize.ShloMosaic Idealize.ShloMosaic.ValueIdx

namespace Cert.Spec

abbrev SN : Shape := ⟨2, ![50000, 128]⟩
abbrev SC : Shape := ⟨2, ![50000, 256]⟩
abbrev SW : Shape := ⟨2, ![128, 128]⟩
abbrev SWW : Shape := ⟨2, ![128, 256]⟩
abbrev SWT : Shape := ⟨2, ![256, 128]⟩

/-- The joined array at a column of its first half. -/
theorem cat_left (agg h : SN.Idx → EReal) (hc : Shape.Concatenates [SN, SN] SC 1) (r : Fin 50000) (k : Fin 128) :
    concatenate SC 1 [⟨SN, agg⟩, ⟨SN, h⟩] hc (ix2 r ⟨k.val, by omega⟩) = agg (ix2 r k) :=
  concatenate_pair_apply_left (1 : Fin SC.rank) agg h hc (ix2 r ⟨k.val, by omega⟩) rfl (ix2 r k) fun b => by
    match b with
    | ⟨0, _⟩ => rfl
    | ⟨1, _⟩ => rfl

/-- The joined array at a column of its second half. -/
theorem cat_right (agg h : SN.Idx → EReal) (hc : Shape.Concatenates [SN, SN] SC 1) (r : Fin 50000) (k : Fin 128) :
    concatenate SC 1 [⟨SN, agg⟩, ⟨SN, h⟩] hc (ix2 r ⟨128 + k.val, by omega⟩) = h (ix2 r k) :=
  concatenate_pair_apply_right (1 : Fin SC.rank) agg h hc (ix2 r ⟨128 + k.val, by omega⟩) rfl rfl (ix2 r k)
    (fun b hb => by
      match b with
      | ⟨0, _⟩ => rfl
      | ⟨1, _⟩ => exact absurd rfl hb)
    (by show k.val + 128 = 128 + k.val; omega)

/-- The stacked weight, transposed, at a row of its first half: the transposed neighbour weight. -/
theorem stack_left (wl wr : SW.Idx → EReal) (hc : Shape.Concatenates [SW, SW] SWW 1)
    (ht : SWW.Transposes [1, 0] SWT) (ht' : SW.Transposes [1, 0] SW) (k j : Fin 128) :
    transpose SWT [1, 0] (concatenate SWW 1 [⟨SW, wl⟩, ⟨SW, wr⟩] hc) ht (ix2 ⟨k.val, by omega⟩ j)
      = transpose SW [1, 0] wl ht' (ix2 k j) := by
  rw [transpose_apply [1, 0] _ ht (ix2 ⟨k.val, by omega⟩ j) (ix2 j ⟨k.val, by omega⟩) (fun b => by
      match b with
      | ⟨0, _⟩ => rfl
      | ⟨1, _⟩ => rfl),
    transpose_apply [1, 0] wl ht' (ix2 k j) (ix2 j k) (fun b => by
      match b with
      | ⟨0, _⟩ => rfl
      | ⟨1, _⟩ => rfl)]
  exact concatenate_pair_apply_left (1 : Fin SWW.rank) wl wr hc (ix2 j ⟨k.val, by omega⟩) rfl (ix2 j k) fun b => by
    match b with
    | ⟨0, _⟩ => rfl
    | ⟨1, _⟩ => rfl

/-- The stacked weight, transposed, at a row of its second half: the transposed self weight. -/
theorem stack_right (wl wr : SW.Idx → EReal) (hc : Shape.Concatenates [SW, SW] SWW 1)
    (ht : SWW.Transposes [1, 0] SWT) (ht' : SW.Transposes [1, 0] SW) (k j : Fin 128) :
    transpose SWT [1, 0] (concatenate SWW 1 [⟨SW, wl⟩, ⟨SW, wr⟩] hc) ht (ix2 ⟨128 + k.val, by omega⟩ j)
      = transpose SW [1, 0] wr ht' (ix2 k j) := by
  rw [transpose_apply [1, 0] _ ht (ix2 ⟨128 + k.val, by omega⟩ j) (ix2 j ⟨128 + k.val, by omega⟩) (fun b => by
      match b with
      | ⟨0, _⟩ => rfl
      | ⟨1, _⟩ => rfl),
    transpose_apply [1, 0] wr ht' (ix2 k j) (ix2 j k) (fun b => by
      match b with
      | ⟨0, _⟩ => rfl
      | ⟨1, _⟩ => rfl)]
  exact concatenate_pair_apply_right (1 : Fin SWW.rank) wl wr hc (ix2 j ⟨128 + k.val, by omega⟩) rfl rfl (ix2 j k)
    (fun b hb => by
      match b with
      | ⟨0, _⟩ => rfl
      | ⟨1, _⟩ => exact absurd rfl hb)
    (by show k.val + 128 = 128 + k.val; omega)

/-- A graph-convolution stage over the joined operands is the stage over the pieces. -/
theorem sageCat_join (agg h : SN.Idx → EReal) (wl wr : SW.Idx → EReal) (b g be mu v : Arr 1 128)
    (hc : Shape.Concatenates [SN, SN] SC 1) (hcw : Shape.Concatenates [SW, SW] SWW 1)
    (ht : SWW.Transposes [1, 0] SWT) (ht' : SW.Transposes [1, 0] SW) :
    sageCat (concatenate SC 1 [⟨SN, agg⟩, ⟨SN, h⟩] hc)
        (transpose SWT [1, 0] (concatenate SWW 1 [⟨SW, wl⟩, ⟨SW, wr⟩] hcw) ht) b g be mu v
      = sageTwo agg h (transpose SW [1, 0] wl ht') (transpose SW [1, 0] wr ht') b g be mu v := by
  funext i
  unfold sageCat sageTwo
  rw [lin_split _ _ b agg h (transpose SW [1, 0] wl ht') (transpose SW [1, 0] wr ht')
    (fun r k => cat_left agg h hc r k) (fun r k => cat_right agg h hc r k)
    (fun k j => stack_left wl wr hcw ht ht' k j) (fun k j => stack_right wl wr hcw ht ht' k j) i]

end Cert.Spec

end
-- ==== Proof.Bridge2.lean ====
/-
  The two programs meet after the second convolution.

  Both programs gather the previous features by source node and mean-aggregate them by destination node with the same
  host operations, so the aggregates agree. The kernel then joins the aggregate with the previous features and stacks
  the two weights before one product; the reference keeps two products. `Spec.sageCat_join` is the law between the two
  arrangements; the stage is `Spec.sageCat` on the kernel's side and `Spec.sageTwo` on the reference's.
-/
import proofs.«146433_j64295660421275_1_alg».proof.Proof.Gen.KernelIdeal.Frame
import proofs.«146433_j64295660421275_1_alg».proof.Proof.Ker2
import proofs.«146433_j64295660421275_1_alg».proof.Proof.Ref2
import proofs.«146433_j64295660421275_1_alg».proof.Proof.Keep
import proofs.«146433_j64295660421275_1_alg».proof.Proof.Spec
import proofs.«146433_j64295660421275_1_alg».proof.Proof.Bridge1
import proofs.«146433_j64295660421275_1_alg».proof.Proof.Join
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.Bridge

open Cert.KernelIdeal Cert.KernelIdeal.Gen Cert.Spec

variable (m : (ℓ : Loc nD τ sig) → Buf (Elt Ideal) ℓ) (ρ : Dev nD → PrngReg)

set_option maxHeartbeats 4000000 in
/-- The joined array the stage finds: the reference's neighbour mean beside the reference's previous features. -/
theorem in2_cat (c : Dev nD) : (V5 m ρ c main_v53 : S50000x256.Idx → EReal)
    = concatenate S50000x256 1 [⟨S50000x128, (Cert.ReferenceIdeal.Read.val_main_v66 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : S50000x128.Idx → EReal)⟩,
        ⟨S50000x128, (Cert.ReferenceIdeal.Read.val_main_v44 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) : S50000x128.Idx → EReal)⟩] concatenates_S50000x128_S50000x128_S50000x256_d1 := by
  show StableHlo.after hostOps2 (W4 m ρ c) (Proc.devRef .tc main_v53) = _
  after_results_simp
  refine congrArg₂ (fun a b : S50000x128.Idx → EReal => concatenate S50000x256 1 [⟨S50000x128, a⟩, ⟨S50000x128, b⟩]
    concatenates_S50000x128_S50000x128_S50000x256_d1) ?_ ?_
  · after_results_simp
    rw [Cert.KernelIdeal.HandKeep.arg2_at_W4 m ρ c, stage1 m ρ c]
    rfl
  · after_results_simp
    exact stage1 m ρ c

/-- The weight the stage finds: the two weights side by side, transposed. -/
theorem in2_w (c : Dev nD) : (V5 m ρ c main_v55 : S256x128.Idx → EReal)
    = transpose S256x128 [1, 0] (concatenate S128x256 1 [⟨S128x128, ((m ((c : Thread nD τ).loc main_arg11)) : S128x128.Idx → EReal)⟩,
        ⟨S128x128, ((m ((c : Thread nD τ).loc main_arg13)) : S128x128.Idx → EReal)⟩] concatenates_S128x128_S128x128_S128x256_d1) transposes_S128x256_S256x128_1_0 := by
  show StableHlo.after hostOps2 (W4 m ρ c) (Proc.devRef .tc main_v55) = _
  after_results_simp
  refine congrArg (fun x : S128x256.Idx → EReal => transpose S256x128 [1, 0] x transposes_S128x256_S256x128_1_0) ?_
  refine congrArg₂ (fun a b : S128x128.Idx → EReal => concatenate S128x256 1 [⟨S128x128, a⟩, ⟨S128x128, b⟩]
    concatenates_S128x128_S128x128_S128x256_d1) ?_ ?_
  · after_results_simp
    exact Cert.KernelIdeal.HandKeep.arg11_at_W4 m ρ c
  · after_results_simp
    exact Cert.KernelIdeal.HandKeep.arg13_at_W4 m ρ c

/-- Parameter vector 12 as the stage finds it: the vector as one row. -/
theorem in2_p12 (c : Dev nD) : (V5 m ρ c main_v56 : S1x128.Idx → EReal) = row (m ((c : Thread nD τ).loc main_arg12)) := by
  show StableHlo.after hostOps2 (W4 m ρ c) (Proc.devRef .tc main_v56) = _
  after_results_simp
  rw [Cert.KernelIdeal.HandKeep.arg12_at_W4 m ρ c]
  exact reshape_row _ _

/-- Parameter vector 14 as the stage finds it: the vector as one row. -/
theorem in2_p14 (c : Dev nD) : (V5 m ρ c main_v57 : S1x128.Idx → EReal) = row (m ((c : Thread nD τ).loc main_arg14)) := by
  show StableHlo.after hostOps2 (W4 m ρ c) (Proc.devRef .tc main_v57) = _
  after_results_simp
  rw [Cert.KernelIdeal.HandKeep.arg14_at_W4 m ρ c]
  exact reshape_row _ _

/-- Parameter vector 15 as the stage finds it: the vector as one row. -/
theorem in2_p15 (c : Dev nD) : (V5 m ρ c main_v58 : S1x128.Idx → EReal) = row (m ((c : Thread nD τ).loc main_arg15)) := by
  show StableHlo.after hostOps2 (W4 m ρ c) (Proc.devRef .tc main_v58) = _
  after_results_simp
  rw [Cert.KernelIdeal.HandKeep.arg15_at_W4 m ρ c]
  exact reshape_row _ _

/-- Parameter vector 16 as the stage finds it: the vector as one row. -/
theorem in2_p16 (c : Dev nD) : (V5 m ρ c main_v59 : S1x128.Idx → EReal) = row (m ((c : Thread nD τ).loc main_arg16)) := by
  show StableHlo.after hostOps2 (W4 m ρ c) (Proc.devRef .tc main_v59) = _
  after_results_simp
  rw [Cert.KernelIdeal.HandKeep.arg16_at_W4 m ρ c]
  exact reshape_row _ _

/-- Parameter vector 17 as the stage finds it: the vector as one row. -/
theorem in2_p17 (c : Dev nD) : (V5 m ρ c main_v60 : S1x128.Idx → EReal) = row (m ((c : Thread nD τ).loc main_arg17)) := by
  show StableHlo.after hostOps2 (W4 m ρ c) (Proc.devRef .tc main_v60) = _
  after_results_simp
  rw [Cert.KernelIdeal.HandKeep.arg17_at_W4 m ρ c]
  exact reshape_row _ _

/-- After the second convolution the kernel's node features are the reference's. -/
theorem stage2 (c : Dev nD) :
    W6 m ρ c (Proc.devRef .tc main_v61) = Cert.ReferenceIdeal.Read.val_main_v90 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W6_arr m ρ c 7).trans ?_
  rw [Cert.KernelIdeal.Hand2.final (V5 m ρ) c, Cert.ReferenceIdeal.Hand2.sage_eq,
    in2_cat m ρ c, in2_w m ρ c, in2_p12 m ρ c, in2_p14 m ρ c, in2_p15 m ρ c, in2_p16 m ρ c, in2_p17 m ρ c]
  exact sageCat_join _ _ _ _ _ _ _ _ _ _ _ _ _

end Cert.Bridge

end
-- ==== Proof.Bridge3.lean ====
/-
  The two programs meet after the third convolution.

  Both programs gather the previous features by source node and mean-aggregate them by destination node with the same
  host operations, so the aggregates agree. The kernel then joins the aggregate with the previous features and stacks
  the two weights before one product; the reference keeps two products. `Spec.sageCat_join` is the law between the two
  arrangements; the stage is `Spec.sageCat` on the kernel's side and `Spec.sageTwo` on the reference's.
-/
import proofs.«146433_j64295660421275_1_alg».proof.Proof.Gen.KernelIdeal.Frame
import proofs.«146433_j64295660421275_1_alg».proof.Proof.Ker3
import proofs.«146433_j64295660421275_1_alg».proof.Proof.Ref3
import proofs.«146433_j64295660421275_1_alg».proof.Proof.Keep
import proofs.«146433_j64295660421275_1_alg».proof.Proof.Spec
import proofs.«146433_j64295660421275_1_alg».proof.Proof.Bridge2
import proofs.«146433_j64295660421275_1_alg».proof.Proof.Join
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.Bridge

open Cert.KernelIdeal Cert.KernelIdeal.Gen Cert.Spec

variable (m : (ℓ : Loc nD τ sig) → Buf (Elt Ideal) ℓ) (ρ : Dev nD → PrngReg)

set_option maxHeartbeats 4000000 in
/-- The joined array the stage finds: the reference's neighbour mean beside the reference's previous features. -/
theorem in3_cat (c : Dev nD) : (V7 m ρ c main_v84 : S50000x256.Idx → EReal)
    = concatenate S50000x256 1 [⟨S50000x128, (Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) : S50000x128.Idx → EReal)⟩,
        ⟨S50000x128, (Cert.ReferenceIdeal.Read.val_main_v90 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) : S50000x128.Idx → EReal)⟩] concatenates_S50000x128_S50000x128_S50000x256_d1 := by
  show StableHlo.after hostOps3 (W6 m ρ c) (Proc.devRef .tc main_v84) = _
  after_results_simp
  refine congrArg₂ (fun a b : S50000x128.Idx → EReal => concatenate S50000x256 1 [⟨S50000x128, a⟩, ⟨S50000x128, b⟩]
    concatenates_S50000x128_S50000x128_S50000x256_d1) ?_ ?_
  · after_results_simp
    rw [Cert.KernelIdeal.HandKeep.arg3_at_W6 m ρ c, stage2 m ρ c]
    rfl
  · after_results_simp
    exact stage2 m ρ c

/-- The weight the stage finds: the two weights side by side, transposed. -/
theorem in3_w (c : Dev nD) : (V7 m ρ c main_v86 : S256x128.Idx → EReal)
    = transpose S256x128 [1, 0] (concatenate S128x256 1 [⟨S128x128, ((m ((c : Thread nD τ).loc main_arg18)) : S128x128.Idx → EReal)⟩,
        ⟨S128x128, ((m ((c : Thread nD τ).loc main_arg20)) : S128x128.Idx → EReal)⟩] concatenates_S128x128_S128x128_S128x256_d1) transposes_S128x256_S256x128_1_0 := by
  show StableHlo.after hostOps3 (W6 m ρ c) (Proc.devRef .tc main_v86) = _
  after_results_simp
  refine congrArg (fun x : S128x256.Idx → EReal => transpose S256x128 [1, 0] x transposes_S128x256_S256x128_1_0) ?_
  refine congrArg₂ (fun a b : S128x128.Idx → EReal => concatenate S128x256 1 [⟨S128x128, a⟩, ⟨S128x128, b⟩]
    concatenates_S128x128_S128x128_S128x256_d1) ?_ ?_
  · after_results_simp
    exact Cert.KernelIdeal.HandKeep.arg18_at_W6 m ρ c
  · after_results_simp
    exact Cert.KernelIdeal.HandKeep.arg20_at_W6 m ρ c

/-- Parameter vector 19 as the stage finds it: the vector as one row. -/
theorem in3_p19 (c : Dev nD) : (V7 m ρ c main_v87 : S1x128.Idx → EReal) = row (m ((c : Thread nD τ).loc main_arg19)) := by
  show StableHlo.after hostOps3 (W6 m ρ c) (Proc.devRef .tc main_v87) = _
  after_results_simp
  rw [Cert.KernelIdeal.HandKeep.arg19_at_W6 m ρ c]
  exact reshape_row _ _

/-- Parameter vector 21 as the stage finds it: the vector as one row. -/
theorem in3_p21 (c : Dev nD) : (V7 m ρ c main_v88 : S1x128.Idx → EReal) = row (m ((c : Thread nD τ).loc main_arg21)) := by
  show StableHlo.after hostOps3 (W6 m ρ c) (Proc.devRef .tc main_v88) = _
  after_results_simp
  rw [Cert.KernelIdeal.HandKeep.arg21_at_W6 m ρ c]
  exact reshape_row _ _

/-- Parameter vector 22 as the stage finds it: the vector as one row. -/
theorem in3_p22 (c : Dev nD) : (V7 m ρ c main_v89 : S1x128.Idx → EReal) = row (m ((c : Thread nD τ).loc main_arg22)) := by
  show StableHlo.after hostOps3 (W6 m ρ c) (Proc.devRef .tc main_v89) = _
  after_results_simp
  rw [Cert.KernelIdeal.HandKeep.arg22_at_W6 m ρ c]
  exact reshape_row _ _

/-- Parameter vector 23 as the stage finds it: the vector as one row. -/
theorem in3_p23 (c : Dev nD) : (V7 m ρ c main_v90 : S1x128.Idx → EReal) = row (m ((c : Thread nD τ).loc main_arg23)) := by
  show StableHlo.after hostOps3 (W6 m ρ c) (Proc.devRef .tc main_v90) = _
  after_results_simp
  rw [Cert.KernelIdeal.HandKeep.arg23_at_W6 m ρ c]
  exact reshape_row _ _

/-- Parameter vector 24 as the stage finds it: the vector as one row. -/
theorem in3_p24 (c : Dev nD) : (V7 m ρ c main_v91 : S1x128.Idx → EReal) = row (m ((c : Thread nD τ).loc main_arg24)) := by
  show StableHlo.after hostOps3 (W6 m ρ c) (Proc.devRef .tc main_v91) = _
  after_results_simp
  rw [Cert.KernelIdeal.HandKeep.arg24_at_W6 m ρ c]
  exact reshape_row _ _

/-- After the third convolution the kernel's node features are the reference's. -/
theorem stage3 (c : Dev nD) :
    W8 m ρ c (Proc.devRef .tc main_v92) = Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W8_arr m ρ c 7).trans ?_
  rw [Cert.KernelIdeal.Hand3.final (V7 m ρ) c, Cert.ReferenceIdeal.Hand3.sage_eq,
    in3_cat m ρ c, in3_w m ρ c, in3_p19 m ρ c, in3_p21 m ρ c, in3_p22 m ρ c, in3_p23 m ρ c, in3_p24 m ρ c]
  exact sageCat_join _ _ _ _ _ _ _ _ _ _ _ _ _

end Cert.Bridge

end
-- ==== Proof.RunResult.lean ====
/-
  The idealized kernel's run, read at every buffer.

  @main is eleven segments: six stretches of host operations and, between them, the five dense stages, each a grid
  of row blocks. The contents of the core's buffers at each segment boundary are a fold from the launch memory
  (`Gen.W0 … Gen.W11`): a host stretch applies its operations, a dense stage replaces its result array by what its
  write-backs leave. Every weakly fair execution terminates without a fault in a state whose unscoped buffers hold
  the last boundary's contents `Gen.W11`: at the result buffer that is the value to compare with the reference's,
  at an argument it is the launch contents, no segment writing an argument.
-/
import proofs.«146433_j64295660421275_1_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final state every unscoped buffer
    of every core holds the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The result buffer is unscoped. -/
theorem result_mem : Proc.devRef .tc main_v99 ∈ Pipeline.ucRefs τ sig := mem_uc main_v99 (by decide)

end Cert.KernelIdeal.HandRun

end
-- ==== Proof.Bridge4.lean ====
/-
  The two programs meet after the read-out, and at the result.

  Both programs join the last features with the input features and transpose the two weights with the same host
  operations; the offsets reach the stage as one-row arrays. The stage is `Spec.mlp` on both sides, and the result is
  its one column laid out as a vector by the same reshape. With the run read at every buffer this gives the idealized
  kernel's run with its result named by the reference's term of the launch contents.
-/
import proofs.«146433_j64295660421275_1_alg».proof.Proof.Gen.KernelIdeal.Frame
import proofs.«146433_j64295660421275_1_alg».proof.Proof.Ker4
import proofs.«146433_j64295660421275_1_alg».proof.Proof.Ref4
import proofs.«146433_j64295660421275_1_alg».proof.Proof.Keep
import proofs.«146433_j64295660421275_1_alg».proof.Proof.Spec
import proofs.«146433_j64295660421275_1_alg».proof.Proof.Bridge3
import proofs.«146433_j64295660421275_1_alg».proof.Proof.RunResult
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.Bridge

open Cert.KernelIdeal Cert.KernelIdeal.Gen Cert.Spec

variable (m : (ℓ : Loc nD τ sig) → Buf (Elt Ideal) ℓ) (ρ : Dev nD → PrngReg)

/-- The joined array the read-out finds is the reference's. -/
theorem in4_z (c : Dev nD) : (V9 m ρ c main_v93 : S50000x192.Idx → EReal) = Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps4 (W8 m ρ c) (Proc.devRef .tc main_v93) = _
  after_results
  rw [Cert.KernelIdeal.HandKeep.arg0_at_W8 m ρ c, stage3 m ρ c]
  rfl

/-- The first weight, transposed, is the reference's. -/
theorem in4_w4 (c : Dev nD) : (V9 m ρ c main_v94 : S192x64.Idx → EReal) = Cert.ReferenceIdeal.Read.val_main_v138 (F := Ideal) (m ((c : Thread nD τ).loc main_arg25)) := by
  show StableHlo.after hostOps4 (W8 m ρ c) (Proc.devRef .tc main_v94) = _
  after_results
  rw [Cert.KernelIdeal.HandKeep.arg25_at_W8 m ρ c]
  rfl

/-- The second weight, transposed, is the reference's. -/
theorem in4_w5 (c : Dev nD) : (V9 m ρ c main_v95 : S64x1.Idx → EReal) = Cert.ReferenceIdeal.Read.val_main_v144 (F := Ideal) (m ((c : Thread nD τ).loc main_arg27)) := by
  show StableHlo.after hostOps4 (W8 m ρ c) (Proc.devRef .tc main_v95) = _
  after_results
  rw [Cert.KernelIdeal.HandKeep.arg27_at_W8 m ρ c]
  rfl

/-- Parameter vector 26 as the stage finds it: the vector as one row. -/
theorem in4_p26 (c : Dev nD) : (V9 m ρ c main_v96 : S1x64.Idx → EReal) = row (m ((c : Thread nD τ).loc main_arg26)) := by
  show StableHlo.after hostOps4 (W8 m ρ c) (Proc.devRef .tc main_v96) = _
  after_results
  rw [Cert.KernelIdeal.HandKeep.arg26_at_W8 m ρ c]
  exact reshape_row _ _

/-- Parameter vector 28 as the stage finds it: the vector as one row. -/
theorem in4_p28 (c : Dev nD) : (V9 m ρ c main_v97 : S1x1.Idx → EReal) = row (m ((c : Thread nD τ).loc main_arg28)) := by
  show StableHlo.after hostOps4 (W8 m ρ c) (Proc.devRef .tc main_v97) = _
  after_results
  rw [Cert.KernelIdeal.HandKeep.arg28_at_W8 m ρ c]
  exact reshape_row _ _

/-- After the read-out the kernel's one-column array is the reference's. -/
theorem stage4 (c : Dev nD) :
    W10 m ρ c (Proc.devRef .tc main_v98) = Cert.ReferenceIdeal.Read.val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  refine (W10_arr m ρ c 5).trans ?_
  rw [Cert.KernelIdeal.Hand4.final (V9 m ρ) c, Cert.ReferenceIdeal.Hand4.mlp_eq,
    in4_z m ρ c, in4_w4 m ρ c, in4_p26 m ρ c, in4_w5 m ρ c, in4_p28 m ρ c]

/-- The kernel's result is the reference's term of the launch contents. -/
theorem result_eq (c : Dev nD) :
    W11 m ρ c (Proc.devRef .tc main_v99) = Cert.ReferenceIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  show StableHlo.after hostOps5 (W10 m ρ c) (Proc.devRef .tc main_v99) = _
  after_results
  rw [stage4 m ρ c]
  rfl

/-- The idealized kernel's run, read: every weakly fair execution terminates, nothing faulting, with the result buffer
    at the reference's term of the launch contents and the argument arrays as launched. -/
theorem run_value : θ_run defs (onTc (τ := τ) (main (F := Ideal))) ⟨m, fun _ => 0, ρ⟩ (fun r => ∀ c : Dev nD,
      r.2.mem ((c.tc : Thread nD τ).loc main_v99) = Cert.ReferenceIdeal.Read.val_main_v149 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c =>
    ⟨(h c _ (Cert.KernelIdeal.HandRun.result_mem)).trans (result_eq m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c),
     (h c _ (mem_uc main_arg15 (by decide))).trans (W11_main_arg15 m ρ c),
     (h c _ (mem_uc main_arg16 (by decide))).trans (W11_main_arg16 m ρ c),
     (h c _ (mem_uc main_arg17 (by decide))).trans (W11_main_arg17 m ρ c),
     (h c _ (mem_uc main_arg18 (by decide))).trans (W11_main_arg18 m ρ c),
     (h c _ (mem_uc main_arg19 (by decide))).trans (W11_main_arg19 m ρ c),
     (h c _ (mem_uc main_arg20 (by decide))).trans (W11_main_arg20 m ρ c),
     (h c _ (mem_uc main_arg21 (by decide))).trans (W11_main_arg21 m ρ c),
     (h c _ (mem_uc main_arg22 (by decide))).trans (W11_main_arg22 m ρ c),
     (h c _ (mem_uc main_arg23 (by decide))).trans (W11_main_arg23 m ρ c),
     (h c _ (mem_uc main_arg24 (by decide))).trans (W11_main_arg24 m ρ c),
     (h c _ (mem_uc main_arg25 (by decide))).trans (W11_main_arg25 m ρ c),
     (h c _ (mem_uc main_arg26 (by decide))).trans (W11_main_arg26 m ρ c),
     (h c _ (mem_uc main_arg27 (by decide))).trans (W11_main_arg27 m ρ c),
     (h c _ (mem_uc main_arg28 (by decide))).trans (W11_main_arg28 m ρ c)⟩)
    (Cert.KernelIdeal.HandRun.run_all (F := Ideal) m ρ)

end Cert.Bridge

end
-- ==== Proof.lean ====
/-
  The certificate: the dense-stage kernel and the plain reference compute one function of their arguments on the
  extended reals.

  Both programs are a message-passing network: a linear map on the joined edge features, mean-aggregated by destination
  node and normalised; two graph-convolution layers, each a mean aggregation over neighbours, a linear combination of
  the aggregate and the node's own features, a normalisation and a positive part; and a two-layer read-out. The
  gathers, the scatter-adds and the quotients by the clamped counts are the same host operations in both programs and
  are never opened. The five dense stages run in the kernel as grids of row blocks; each is shown to leave the
  index-by-index function `Cert.Spec` names (the blocks tile the rows, and a row of the result depends on the same row
  of the first operand only), and the reference's matching operations are that same function. The one rearrangement
  is in the graph convolutions, where the kernel multiplies the joined row `[agg | h]` by the stacked weight and adds
  the offset last, the reference adding it between its two products: a finite sum split in two and a reordering of
  three summands, which hold on the extended reals with no finiteness assumption. So the precondition is never opened.

  The three frames: the two kernels' by their frame certificates, the reference's by its run. No operation was
  rewritten by the idealization, so nothing is owed for it.
-/
import proofs.«146433_j64295660421275_1_alg».proof.Defs
import proofs.«146433_j64295660421275_1_alg».proof.Proof.Gen.Kernel
import proofs.«146433_j64295660421275_1_alg».proof.Proof.Gen.Kernel.Frame
import proofs.«146433_j64295660421275_1_alg».proof.Proof.Gen.KernelIdeal
import proofs.«146433_j64295660421275_1_alg».proof.Proof.Gen.KernelIdeal.Frame
import proofs.«146433_j64295660421275_1_alg».proof.Proof.Gen.ReferenceIdeal
import proofs.«146433_j64295660421275_1_alg».proof.Proof.Gen.ReferenceIdeal.Run
import proofs.«146433_j64295660421275_1_alg».proof.Proof.Gen.ReferenceIdeal.Read
import proofs.«146433_j64295660421275_1_alg».proof.Proof.Gen.Pre_finite_inputs
import proofs.«146433_j64295660421275_1_alg».proof.Proof.Bridge4
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the reference's term of the kernel's launch
    contents: the kernel by its run read through the five stages, the reference by its own run with the arguments'
    agreement rewritten. -/
theorem algebraic : Cert.algebraic_KernelIdeal_ReferenceIdeal := by
  intro m ρ m' ρ' _ hagree
  refine ⟨_, Cert.Bridge.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24, e25, e26, e27, e28⟩ := hagree c
  rw [Cert.ReferenceIdeal.Read.val_main_v149_eq, e0, e1, e2, e3, e4, e5, e6, e7, e8, e9, e10, e11, e12, e13, e14, e15, e16, e17, e18, e19, e20, e21, e22, e23, e24, e25, e26, e27, e28]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
